-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x16 : S_.BroadcastsInDim S128x16 (![] : Fin 0 → Fin S128x16.rank)
  reducesTo_S128x16_S_d0_1 : S128x16.ReducesTo [0, 1] S_
  bcast_S_S16x16 : S_.BroadcastsInDim S16x16 (![] : Fin 0 → Fin S16x16.rank)
  reducesTo_S16x16_S_d0_1 : S16x16.ReducesTo [0, 1] S_

variable [Facts]

def fn_part1 {F : FTy → Type} [FloatOps F] (main_v13 : IVec S_ 1) (main_v16 : IVec S16x16 1) : IVec S_ 1 :=
  let main_c_5 : IVec S_ 1 := constantI S_ 1 1#1
  let main_v17 : IVec S_ 1 := (fun x v => Host.reduce IntOp.andi x v reducesTo_S16x16_S_d0_1 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x16 .f32) (main_arg3 : FVec F S16x16 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16x16 .f32 := Host.absf main_arg3
  let main_cst_4 : FVec F S_ .f32 := constant S_ .f32 0x7F800000#32
  let main_v15 : FVec F S16x16 .f32 := broadcastInDim S16x16 ![] bcast_S_S16x16 main_cst_4
  let main_v16 : IVec S16x16 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S10000x16 : Shape := ⟨2, ![10000, 16]⟩
abbrev S400x10000 : Shape := ⟨2, ![400, 10000]⟩
abbrev S400x16 : Shape := ⟨2, ![400, 16]⟩
abbrev S16x10000 : Shape := ⟨2, ![16, 10000]⟩
abbrev S25x16x400 : Shape := ⟨3, ![25, 16, 400]⟩
abbrev S16x400 : Shape := ⟨2, ![16, 400]⟩
abbrev S1x16x400 : Shape := ⟨3, ![1, 16, 400]⟩
abbrev S400 : Shape := ⟨1, ![400]⟩
abbrev S1x400 : Shape := ⟨2, ![1, 400]⟩

abbrev nBuf : Space → Nat
  | .hbm => 5
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16x16, .f32⟩
  | .hbm, ⟨4, _⟩ => ⟨S10000x16, .f32⟩
  | .local _ .vmem, ⟨0, _⟩ => ⟨S10000x128, .f32⟩
  | .local _ .vmem, ⟨1, _⟩ => ⟨S400x10000, .f32⟩
  | .local _ .vmem, ⟨2, _⟩ => ⟨S400x10000, .f32⟩
  | .local _ .vmem, ⟨3, _⟩ => ⟨S128x16, .f32⟩
  | .local _ .vmem, ⟨4, _⟩ => ⟨S16x16, .f32⟩
  | .local _ .vmem, ⟨5, _⟩ => ⟨S400x16, .f32⟩
  | .local _ .vmem, ⟨6, _⟩ => ⟨S400x16, .f32⟩
  | .local _ .vmem, ⟨7, _⟩ => ⟨S16x10000, .f32⟩
  | .local _ .vmem, ⟨8, _⟩ => ⟨S25x16x400, .f32⟩
  | .local _ .vmem, ⟨9, _⟩ => ⟨S16x10000, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![50], ![false]⟩

def k0_cond2 (i : grid0.Coords) : BitVec 1 :=
  let arg0 : BitVec 32 := BitVec.ofNat 32 (i 0).val
  let c25_i32 : BitVec 32 := 25#32
  let v3 : BitVec 1 := Scalar.cmpi .slt arg0 c25_i32
  let v4 : BitVec 32 := Scalar.extui v3
  let c0_i32_1 : BitVec 32 := 0#32
  let v5 : BitVec 1 := Scalar.cmpi .ne v4 c0_i32_1
  v5

def k0_off1 (i : grid0.Coords) : Fin 3 → Nat :=
  let arg0 : BitVec 32 := BitVec.ofNat 32 (i 0).val
  let v19 : Index := Scalar.indexCast arg0
  let c0_13 : Index := 0#32
  let c0_14 : Index := 0#32
  ![v19.toNat, 0, 0]
def k0_cond4 (i : grid0.Coords) : BitVec 1 :=
  let arg0 : BitVec 32 := BitVec.ofNat 32 (i 0).val
  let c25_i32_4 : BitVec 32 := 25#32
  let v9 : BitVec 1 := Scalar.cmpi .sge arg0 c25_i32_4
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c25_i32 : BitVec 32 := 25#32
  let c0_i32 : BitVec 32 := 0#32
  let v0 : BitVec 1 := Scalar.cmpi .eq c25_i32 c0_i32
  let c1_i32 : BitVec 32 := 1#32
  let v1 : BitVec 32 := Scalar.select v0 c1_i32 c25_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c25_i32 : BitVec 32 := 25#32
  let v0 : BitVec 32 := Scalar.subi arg0 c25_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S400x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S128x16_S128x16_0_0 : ∀ a, (![0, 0] : Fin 2 → Nat) a + S128x16.size a ≤ S128x16.size a
  h_S128x16 : 0 < S128x16.numel
  inb_S10000x128_S10000x128_0_0 : ∀ a, (![0, 0] : Fin 2 → Nat) a + S10000x128.size a ≤ S10000x128.size a
  h_S10000x128 : 0 < S10000x128.numel
  inb_S16x10000_S16x10000_0_0 : ∀ a, (![0, 0] : Fin 2 → Nat) a + S16x10000.size a ≤ S16x10000.size a
  h_S16x10000 : 0 < S16x10000.numel
  shapeCasts_S16x10000_S16x10000 : S16x10000.ShapeCasts S16x10000
  inb_S400x10000_S400x10000_0_0 : ∀ a, (![0, 0] : Fin 2 → Nat) a + S400x10000.size a ≤ S400x10000.size a
  h_S400x10000 : 0 < S400x10000.numel
  inb_S16x16_S16x16_0_0 : ∀ a, (![0, 0] : Fin 2 → Nat) a + S16x16.size a ≤ S16x16.size a
  h_S16x16 : 0 < S16x16.numel
  h_S1x16x400 : 0 < S1x16x400.numel
  shapeCasts_S1x16x400_S16x400 : S1x16x400.ShapeCasts S16x400
  shapeCasts_S16x400_S1x16x400 : S16x400.ShapeCasts S1x16x400
  inb_S25x16x400_S1x16x400_0_0_0 : ∀ a, (![0, 0, 0] : Fin 3 → Nat) a + S1x16x400.size a ≤ S25x16x400.size a
  inb_S25x16x400_S1x16x400_1_0_0 : ∀ a, (![1, 0, 0] : Fin 3 → Nat) a + S1x16x400.size a ≤ S25x16x400.size a
  inb_S25x16x400_S1x16x400_2_0_0 : ∀ a, (![2, 0, 0] : Fin 3 → Nat) a + S1x16x400.size a ≤ S25x16x400.size a
  inb_S25x16x400_S1x16x400_3_0_0 : ∀ a, (![3, 0, 0] : Fin 3 → Nat) a + S1x16x400.size a ≤ S25x16x400.size a
  inb_S25x16x400_S1x16x400_4_0_0 : ∀ a, (![4, 0, 0] : Fin 3 → Nat) a + S1x16x400.size a ≤ S25x16x400.size a
  inb_S25x16x400_S1x16x400_5_0_0 : ∀ a, (![5, 0, 0] : Fin 3 → Nat) a + S1x16x400.size a ≤ S25x16x400.size a
  inb_S25x16x400_S1x16x400_6_0_0 : ∀ a, (![6, 0, 0] : Fin 3 → Nat) a + S1x16x400.size a ≤ S25x16x400.size a
  inb_S25x16x400_S1x16x400_7_0_0 : ∀ a, (![7, 0, 0] : Fin 3 → Nat) a + S1x16x400.size a ≤ S25x16x400.size a
  inb_S25x16x400_S1x16x400_8_0_0 : ∀ a, (![8, 0, 0] : Fin 3 → Nat) a + S1x16x400.size a ≤ S25x16x400.size a
  inb_S25x16x400_S1x16x400_9_0_0 : ∀ a, (![9, 0, 0] : Fin 3 → Nat) a + S1x16x400.size a ≤ S25x16x400.size a
  inb_S25x16x400_S1x16x400_10_0_0 : ∀ a, (![10, 0, 0] : Fin 3 → Nat) a + S1x16x400.size a ≤ S25x16x400.size a
  inb_S25x16x400_S1x16x400_11_0_0 : ∀ a, (![11, 0, 0] : Fin 3 → Nat) a + S1x16x400.size a ≤ S25x16x400.size a
  inb_S25x16x400_S1x16x400_12_0_0 : ∀ a, (![12, 0, 0] : Fin 3 → Nat) a + S1x16x400.size a ≤ S25x16x400.size a
  inb_S25x16x400_S1x16x400_13_0_0 : ∀ a, (![13, 0, 0] : Fin 3 → Nat) a + S1x16x400.size a ≤ S25x16x400.size a
  inb_S25x16x400_S1x16x400_14_0_0 : ∀ a, (![14, 0, 0] : Fin 3 → Nat) a + S1x16x400.size a ≤ S25x16x400.size a
  inb_S25x16x400_S1x16x400_15_0_0 : ∀ a, (![15, 0, 0] : Fin 3 → Nat) a + S1x16x400.size a ≤ S25x16x400.size a
  inb_S25x16x400_S1x16x400_16_0_0 : ∀ a, (![16, 0, 0] : Fin 3 → Nat) a + S1x16x400.size a ≤ S25x16x400.size a
  inb_S25x16x400_S1x16x400_17_0_0 : ∀ a, (![17, 0, 0] : Fin 3 → Nat) a + S1x16x400.size a ≤ S25x16x400.size a
  inb_S25x16x400_S1x16x400_18_0_0 : ∀ a, (![18, 0, 0] : Fin 3 → Nat) a + S1x16x400.size a ≤ S25x16x400.size a
  inb_S25x16x400_S1x16x400_19_0_0 : ∀ a, (![19, 0, 0] : Fin 3 → Nat) a + S1x16x400.size a ≤ S25x16x400.size a
  inb_S25x16x400_S1x16x400_20_0_0 : ∀ a, (![20, 0, 0] : Fin 3 → Nat) a + S1x16x400.size a ≤ S25x16x400.size a
  inb_S25x16x400_S1x16x400_21_0_0 : ∀ a, (![21, 0, 0] : Fin 3 → Nat) a + S1x16x400.size a ≤ S25x16x400.size a
  inb_S25x16x400_S1x16x400_22_0_0 : ∀ a, (![22, 0, 0] : Fin 3 → Nat) a + S1x16x400.size a ≤ S25x16x400.size a
  inb_S25x16x400_S1x16x400_23_0_0 : ∀ a, (![23, 0, 0] : Fin 3 → Nat) a + S1x16x400.size a ≤ S25x16x400.size a
  inb_S25x16x400_S1x16x400_24_0_0 : ∀ a, (![24, 0, 0] : Fin 3 → Nat) a + S1x16x400.size a ≤ S25x16x400.size a
  concatenates_S16x400_S16x400_S16x400_S16x400_S16x400_S16x400_S16x400_S16x400_S16x400_S16x400_S16x400_S16x400_S16x400_S16x400_S16x400_S16x400_S16x400_S16x400_S16x400_S16x400_S16x400_S16x400_S16x400_S16x400_S16x400_S16x10000_d1 : Shape.Concatenates [S16x400, S16x400, S16x400, S16x400, S16x400, S16x400, S16x400, S16x400, S16x400, S16x400, S16x400, S16x400, S16x400, S16x400, S16x400, S16x400, S16x400, S16x400, S16x400, S16x400, S16x400, S16x400, S16x400, S16x400, S16x400] S16x10000 1
  reduces_S16x400_S400 : S16x400.Reduces [0] S400
  shapeCasts_S400_S1x400 : S400.ShapeCasts S1x400
  broadcasts_S1x400_S16x400 : S1x400.Broadcasts S16x400
  transposes_S16x400_p1_0_S400x16 : S16x400.Transposes [1, 0] S400x16
  inb_S400x16_S400x16_0_0 : ∀ a, (![0, 0] : Fin 2 → Nat) a + S400x16.size a ≤ S400x16.size a
  h_S400x16 : 0 < S400x16.numel
  dot_S128x16_S10000x128_S16x10000_0_1_1_0_n_n_wf : DotDims.WF S128x16 S10000x128 S16x10000 [0] [1] [1] [0] [] []
  dot_S16x10000_S400x10000_S16x400_1_1_0_0_n_n_wf : DotDims.WF S16x10000 S400x10000 S16x400 [1] [1] [0] [0] [] []
  dot_S16x16_S16x400_S16x400_0_0_1_1_n_n_wf : DotDims.WF S16x16 S16x400 S16x400 [0] [0] [1] [1] [] []
  hrank0 : 0 < grid0.rank
  k0_off1_inb : ∀ i : grid0.Coords, ∀ (k0_h2 : k0_cond2 i = 1#1), ∀ a, (k0_off1 i) a + S1x16x400.size a ≤ S25x16x400.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x10000.size a ≤ S10000x10000.size a
  hwx0_1 : ∀ i : grid0.Coords, EltTy.bits .f32 = 32 ∨ (Rect.block (s := S10000x10000) S400x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x16.size a ≤ S16x16.size a
  hwx0_3 : ∀ i : grid0.Coords, EltTy.bits .f32 = 32 ∨ (Rect.block (s := S16x16) S16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x16.size a ≤ S10000x16.size a
  hwx0_4 : ∀ i : grid0.Coords, EltTy.bits .f32 = 32 ∨ (Rect.block (s := S10000x16) S400x16.size (cc0_transform_4 i) (hinb0_4 i)).WholeWords (EltTy.packing .f32)

variable [Facts₀]

def dot_S128x16_S10000x128_S16x10000_0_1_1_0_n_n : DotDims S128x16 S10000x128 S16x10000 where
  lhsContracting := [0]
  rhsContracting := [1]
  lhsNonContracting := [1]
  rhsNonContracting := [0]
  lhsBatch := []
  rhsBatch := []
  wf := dot_S128x16_S10000x128_S16x10000_0_1_1_0_n_n_wf
def dot_S16x10000_S400x10000_S16x400_1_1_0_0_n_n : DotDims S16x10000 S400x10000 S16x400 where
  lhsContracting := [1]
  rhsContracting := [1]
  lhsNonContracting := [0]
  rhsNonContracting := [0]
  lhsBatch := []
  rhsBatch := []
  wf := dot_S16x10000_S400x10000_S16x400_1_1_0_0_n_n_wf
def dot_S16x16_S16x400_S16x400_0_0_1_1_n_n : DotDims S16x16 S16x400 S16x400 where
  lhsContracting := [0]
  rhsContracting := [0]
  lhsNonContracting := [1]
  rhsNonContracting := [1]
  lhsBatch := []
  rhsBatch := []
  wf := dot_S16x16_S16x400_S16x400_0_0_1_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond4 i == 1#1) | ⟨_ + 5, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x16 : Shape := ⟨2, ![128, 16]⟩
abbrev S16x16 : Shape := ⟨2, ![16, 16]⟩
abbrev S10000x16 : Shape := ⟨2, ![10000, 16]⟩
abbrev S_ : Shape := ⟨0, ![]⟩
abbrev S10000 : Shape := ⟨1, ![10000]⟩
abbrev S10000x1 : Shape := ⟨2, ![10000, 1]⟩

abbrev nBuf : Space → Nat
  | .hbm => 25
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x16, .f32⟩
  | .hbm, ⟨3, _⟩ => ⟨S16x16, .f32⟩
  | .hbm, ⟨4, _⟩ => ⟨S10000x16, .f32⟩
  | .hbm, ⟨5, _⟩ => ⟨S10000x16, .f32⟩
  | .hbm, ⟨6, _⟩ => ⟨S_, .f32⟩
  | .hbm, ⟨7, _⟩ => ⟨S10000x16, .f32⟩
  | .hbm, ⟨8, _⟩ => ⟨S10000x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000x1, .f32⟩
  | .hbm, ⟨17, _⟩ => ⟨S10000x16, .f32⟩
  | .hbm, ⟨18, _⟩ => ⟨S10000x16, .f32⟩
  | .hbm, ⟨19, _⟩ => ⟨S10000x16, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x16, .f32⟩
  | .hbm, ⟨24, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  reducesTo_S10000x16_S10000_d1 : S10000x16.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x16_0_1 : S10000x1.BroadcastsInDim S10000x16 (![0, 1] : Fin 2 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []
  dot_S10000x16_S16x16_S10000x16_1_0_0_1_n_n_wf : DotDims.WF S10000x16 S16x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf

class Facts : Prop extends Facts₀ where

variable [Facts]
-- ==== Proof.KBodyBase.lean ====
import proofs.«125438_g61907658605231_cont_9to1c4b_501_23_alg».proof.Proof.Gen.Kernel.Frame
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, as the body computes them from the grid coordinate, decided over the 50 points

The body has four guarded parts: the first at point 0 only (the features are projected once), the second at the 25 points
of the first sweep over the adjacency's row bands, the third at point 25 only (the per-band results are laid side by side),
the fourth at the 25 points of the second sweep. -/

abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .eq (BitVec.ofNat 32 (i 0).val) 25#32)) 0#32) = 1#1
abbrev c4 (i : grid0.Coords) : Prop := k0_cond4 i = 1#1

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val < 25 :=
  (by decide +kernel : ∀ t : Fin grid0.N, c2 (grid0.coords t) ↔ t.val < 25)
theorem hc3 : ∀ t : Fin cfg0.N, c3 (grid0.coords t) ↔ t.val = 25 :=
  (by decide +kernel : ∀ t : Fin grid0.N, c3 (grid0.coords t) ↔ t.val = 25)
theorem hc4 : ∀ t : Fin cfg0.N, c4 (grid0.coords t) ↔ 25 ≤ t.val :=
  (by decide +kernel : ∀ t : Fin grid0.N, c4 (grid0.coords t) ↔ 25 ≤ t.val)

/-- The slab of the per-band scratch the second part reads and writes at point `t` is slab `t`. -/
theorem off1_eq : ∀ t : Fin cfg0.N, k0_off1 (grid0.coords t) = ![t.val, 0, 0] :=
  (by decide +kernel : ∀ t : Fin grid0.N, k0_off1 (grid0.coords t) = ![t.val, 0, 0])

/-! ## Where the result window is idle, and where it is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- During the first sweep nothing is stored into the result's block: the window is idle, -/
theorem idle4 : ∀ t : Fin cfg0.N, t.val < 25 → cfg0.idle 4 (grid0.coords t) = true := by decide +kernel
/-- and its block is not written back there; -/
theorem noFlush4 : ∀ t : Fin cfg0.N, t.val < 25 → (cfg0.win 4).flush t = false := by decide +kernel
/-- during the second sweep every point stores the whole block. -/
theorem live4 : ∀ t : Fin cfg0.N, 25 ≤ t.val → cfg0.idle 4 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x16 .f32 := win0_4.stage (cfg0.slots t 4)
abbrev hs4 (t : Fin cfg0.N) : (ms4 t).IsWhole := hstage0_4 ((cfg0.slots t 4).cast nbuf0_4)
/-- The three scratch operands: the projected features (transposed), the per-band results, and those laid side by side. -/
abbrev sc6 : Memref sig .tc .vmem S16x10000 .f32 := Memref.whole cc0_scratch0
abbrev sc7 : Memref sig .tc .vmem S25x16x400 .f32 := Memref.whole cc0_scratch1
abbrev sc8 : Memref sig .tc .vmem S16x10000 .f32 := Memref.whole cc0_scratch2

/-- What the launch hands the body besides the windows: the three scratch buffers at some contents each, and the
    generator register at some state. -/
theorem PhiA_eq (c : Dev nD) :
    (Pipeline.ΦA spec0 c : sProp 𝕄)
      = iprop(iprop((∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc6, sc7, sc8, owns_whole]; try rfl

/-! ## Reading back a buffer after stores -/

section ReadBack
variable {Val : EltTy → Type} [∀ e, Nonempty (Val e)] {sg : RefSig} {κ : Kind} {sp : Space} {S : Shape} {e : EltTy}

/-- A store through the whole buffer leaves its payload, whatever was there. -/
theorem read_store_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

end ReadBack

theorem hz2 : (![0, 0] : Fin 2 → Nat) = fun _ => 0 := by funext a; fin_cases a <;> rfl

end Cert.Kernel.Body
end
-- ==== Proof.KSlab.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One slab of the per-band scratch

The per-band scratch has 25 slabs of 16 × 400, one per row band of the adjacency. A point of the first sweep stores ONE slab
and leaves the others alone; point 25 reads all of them. -/

/-- The scratch's contents after a store of `w` through the slab at offset `off`, over contents `f7`. -/
def putAt (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) : Vec F S25x16x400 .f32 :=
  m7.view.read (Elt F) (m7.view.writes (Elt F) (h7.unread f7) [(⟨Rect.unit off S1x16x400.size hinb, w⟩ : View.Piece (Elt F) S25x16x400 .f32)])

/-- The stored slab reads back as what was stored. -/
theorem putAt_same (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) (n : Nat) (ho : off = ![n, 0, 0])
    (hb : ∀ a, (![n, 0, 0] : Fin 3 → Nat) a + S1x16x400.size a ≤ S25x16x400.size a) :
    View.ld (putAt m7 h7 f7 off hinb w) (Rect.unit (s := S25x16x400) ![n, 0, 0] S1x16x400.size hb) = w := by
  subst ho; funext x
  exact View.read_writes_cons_emb _ _ (Rect.unit (s := S25x16x400) ![n, 0, 0] S1x16x400.size hinb) w [] x

/-- Every other slab reads as before. -/
theorem putAt_other (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) (n b : Nat) (ho : off = ![n, 0, 0]) (hne : b ≠ n)
    (hb : ∀ a, (![b, 0, 0] : Fin 3 → Nat) a + S1x16x400.size a ≤ S25x16x400.size a) :
    View.ld (putAt m7 h7 f7 off hinb w) (Rect.unit (s := S25x16x400) ![b, 0, 0] S1x16x400.size hb)
      = View.ld f7 (Rect.unit (s := S25x16x400) ![b, 0, 0] S1x16x400.size hb) := by
  subst ho; funext x
  show m7.view.read (Elt F) (m7.view.writes (Elt F) (h7.unread f7) [_]) ((Rect.unit (s := S25x16x400) ![b, 0, 0] S1x16x400.size hb).idx x)
    = f7 ((Rect.unit (s := S25x16x400) ![b, 0, 0] S1x16x400.size hb).idx x)
  rw [View.read_writes_apply_of_forall_not_mem _ _ _ _ (fun p hp => ?_), h7.read_unread]
  obtain rfl := List.mem_singleton.mp hp
  rw [Rect.mem_set_unit]
  intro h
  have h0 := h 0
  have e : (((Rect.unit (s := S25x16x400) ![b, 0, 0] S1x16x400.size hb).idx x) 0 : Nat) = b + 1 * (x 0 : Nat) := rfl
  have hx : (x 0 : Nat) < 1 := (x 0).isLt
  have s0 : S1x16x400.size 0 = 1 := rfl
  have o0 : (![n, 0, 0] : Fin 3 → Nat) 0 = n := rfl
  rw [e, o0, s0] at h0
  omega

end Cert.Kernel.Body
end
-- ==== Proof.KRunA.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.KSlab
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point (the first two guarded parts run): the features are projected by the first weights, once, and kept
    transposed in the first scratch; then the first row band is processed as at every point of the first sweep, reading that
    scratch back. -/
theorem runA (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : c1 i) (h2 : c2 i) (h3 : ¬c3 i) (h4 : ¬c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (k0_pay1 x3 x1) ∗ owns (c : Thread nD τ) arg7 fullShare (putAt arg7 harg7 f7 (k0_off1 i) (k0_off1_inb i h2) (k0_pay2 (k0_pay1 x3 x1) x2 x4)) ∗ owns (c : Thread nD τ) arg8 fullShare (f8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    swap; · iexact H6
    ipureintro
    sl_unfold_words
    rw [read_store_whole _ _ hz2]
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  isplitl [H7]
  · iexists _; isplitr
    swap; · iexact H7
    ipureintro
    unfold putAt
    sl_unfold_words
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  iexists _; isplitr
  · ipureintro; exact harg8.read_unread _
  iexact H8

end Cert.Kernel.Body
end
-- ==== Proof.KRunB.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.KSlab
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point of the first sweep after its first (only the second guarded part runs): the point's row band of the adjacency
    against the projected features, rectified, then projected by the second weights, stored through the point's slab of the
    per-band scratch. Everything else is handed back as it was found. -/
theorem runB (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : c2 i) (h3 : ¬c3 i) (h4 : ¬c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (f6) ∗ owns (c : Thread nD τ) arg7 fullShare (putAt arg7 harg7 f7 (k0_off1 i) (k0_off1_inb i h2) (k0_pay2 f6 x2 x4)) ∗ owns (c : Thread nD τ) arg8 fullShare (f8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    unfold putAt
    simp only [View.readAt_eq_ld, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  iexists _; isplitr
  · ipureintro; exact harg8.read_unread _
  iexact H8

end Cert.Kernel.Body
end
-- ==== Proof.KRunC.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.KSlab
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 25 slabs of the per-band scratch laid side by side along the columns: the 16 × 10000 matrix the second sweep
    multiplies the adjacency's row bands with. -/
def sideBySide (f7 : Vec F S25x16x400 .f32) : FVec F S16x10000 .f32 :=
  k0_pay4 (k0_pay3
      (k0_pay6 (View.ld f7 (Rect.unit (s := S25x16x400) ![0, 0, 0] S1x16x400.size inb_S25x16x400_S1x16x400_0_0_0)))
      (k0_pay7 (View.ld f7 (Rect.unit (s := S25x16x400) ![1, 0, 0] S1x16x400.size inb_S25x16x400_S1x16x400_1_0_0)))
      (k0_pay8 (View.ld f7 (Rect.unit (s := S25x16x400) ![2, 0, 0] S1x16x400.size inb_S25x16x400_S1x16x400_2_0_0)))
      (k0_pay9 (View.ld f7 (Rect.unit (s := S25x16x400) ![3, 0, 0] S1x16x400.size inb_S25x16x400_S1x16x400_3_0_0)))
      (k0_pay10 (View.ld f7 (Rect.unit (s := S25x16x400) ![4, 0, 0] S1x16x400.size inb_S25x16x400_S1x16x400_4_0_0)))
      (k0_pay11 (View.ld f7 (Rect.unit (s := S25x16x400) ![5, 0, 0] S1x16x400.size inb_S25x16x400_S1x16x400_5_0_0)))
      (k0_pay12 (View.ld f7 (Rect.unit (s := S25x16x400) ![6, 0, 0] S1x16x400.size inb_S25x16x400_S1x16x400_6_0_0)))
      (k0_pay13 (View.ld f7 (Rect.unit (s := S25x16x400) ![7, 0, 0] S1x16x400.size inb_S25x16x400_S1x16x400_7_0_0)))
      (k0_pay14 (View.ld f7 (Rect.unit (s := S25x16x400) ![8, 0, 0] S1x16x400.size inb_S25x16x400_S1x16x400_8_0_0)))
      (k0_pay15 (View.ld f7 (Rect.unit (s := S25x16x400) ![9, 0, 0] S1x16x400.size inb_S25x16x400_S1x16x400_9_0_0)))
      (k0_pay16 (View.ld f7 (Rect.unit (s := S25x16x400) ![10, 0, 0] S1x16x400.size inb_S25x16x400_S1x16x400_10_0_0)))
      (k0_pay17 (View.ld f7 (Rect.unit (s := S25x16x400) ![11, 0, 0] S1x16x400.size inb_S25x16x400_S1x16x400_11_0_0)))
      (k0_pay18 (View.ld f7 (Rect.unit (s := S25x16x400) ![12, 0, 0] S1x16x400.size inb_S25x16x400_S1x16x400_12_0_0)))
      (k0_pay19 (View.ld f7 (Rect.unit (s := S25x16x400) ![13, 0, 0] S1x16x400.size inb_S25x16x400_S1x16x400_13_0_0)))
      (k0_pay20 (View.ld f7 (Rect.unit (s := S25x16x400) ![14, 0, 0] S1x16x400.size inb_S25x16x400_S1x16x400_14_0_0)))
      (k0_pay21 (View.ld f7 (Rect.unit (s := S25x16x400) ![15, 0, 0] S1x16x400.size inb_S25x16x400_S1x16x400_15_0_0)))
      (k0_pay22 (View.ld f7 (Rect.unit (s := S25x16x400) ![16, 0, 0] S1x16x400.size inb_S25x16x400_S1x16x400_16_0_0)))
      (k0_pay23 (View.ld f7 (Rect.unit (s := S25x16x400) ![17, 0, 0] S1x16x400.size inb_S25x16x400_S1x16x400_17_0_0)))
      (k0_pay24 (View.ld f7 (Rect.unit (s := S25x16x400) ![18, 0, 0] S1x16x400.size inb_S25x16x400_S1x16x400_18_0_0)))
      (k0_pay25 (View.ld f7 (Rect.unit (s := S25x16x400) ![19, 0, 0] S1x16x400.size inb_S25x16x400_S1x16x400_19_0_0)))
      (k0_pay26 (View.ld f7 (Rect.unit (s := S25x16x400) ![20, 0, 0] S1x16x400.size inb_S25x16x400_S1x16x400_20_0_0)))
      (k0_pay27 (View.ld f7 (Rect.unit (s := S25x16x400) ![21, 0, 0] S1x16x400.size inb_S25x16x400_S1x16x400_21_0_0)))
      (k0_pay28 (View.ld f7 (Rect.unit (s := S25x16x400) ![22, 0, 0] S1x16x400.size inb_S25x16x400_S1x16x400_22_0_0)))
      (k0_pay29 (View.ld f7 (Rect.unit (s := S25x16x400) ![23, 0, 0] S1x16x400.size inb_S25x16x400_S1x16x400_23_0_0)))
      (View.ld f7 (Rect.unit (s := S25x16x400) ![24, 0, 0] S1x16x400.size inb_S25x16x400_S1x16x400_24_0_0)))

/-- Point 25 (the last two guarded parts run): the 25 slabs are read and laid side by side into the third scratch; then the
    first row band of the second sweep is processed as at every point of that sweep, reading that scratch back. -/
theorem runC (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : ¬c2 i) (h3 : c3 i) (h4 : c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay5 (sideBySide f7) x2)
            ∗ owns (c : Thread nD τ) arg6 fullShare (f6) ∗ owns (c : Thread nD τ) arg7 fullShare (f7) ∗ owns (c : Thread nD τ) arg8 fullShare (sideBySide f7)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    sl_unfold_words
    rw [read_store_whole _ _ hz2]
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
    rfl
  isplitl [H6]
  · iexists _; isplitr
    · ipureintro; exact harg6.read_unread _
    iexact H6
  isplitl [H7]
  · iexists _; isplitr
    · ipureintro; exact harg7.read_unread _
    iexact H7
  iexists _; isplitr
  swap; · iexact H8
  ipureintro
  sl_unfold_words
  rw [read_store_whole _ _ hz2]
  simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  rfl

end Cert.Kernel.Body
end
-- ==== Proof.KRunD.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point of the second sweep after its first (only the last guarded part runs): the class scores of the point's row band
    against the side-by-side scratch, their softmax over the classes, transposed, stored through the whole result block.
    Everything else is handed back as it was found. -/
theorem runD (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : ¬c2 i) (h3 : ¬c3 i) (h4 : c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay5 f8 x2)
            ∗ owns (c : Thread nD τ) arg6 fullShare f6 ∗ owns (c : Thread nD τ) arg7 fullShare f7 ∗ owns (c : Thread nD τ) arg8 fullShare f8) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    rw [read_store_whole _ _ hz2]
    simp only [View.readAt_eq_ld, harg8.read_unread, harg2.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  isplitl [H6]
  · iexists _; isplitr
    · ipureintro; exact harg6.read_unread _
    iexact H6
  isplitl [H7]
  · iexists _; isplitr
    · ipureintro; exact harg7.read_unread _
    iexact H7
  iexists _; isplitr
  · ipureintro; exact harg8.read_unread _
  iexact H8

end Cert.Kernel.Body
end
-- ==== Proof.KBody.lean ====
import proofs.«125438_g61907658605231_cont_9to1c4b_501_23_alg».proof.Proof.Gen.Kernel.Frame
import proofs.«125438_g61907658605231_cont_9to1c4b_501_23_alg».proof.Proof.KBodyBase
import proofs.«125438_g61907658605231_cont_9to1c4b_501_23_alg».proof.Proof.KSlab
import proofs.«125438_g61907658605231_cont_9to1c4b_501_23_alg».proof.Proof.KRunA
import proofs.«125438_g61907658605231_cont_9to1c4b_501_23_alg».proof.Proof.KRunB
import proofs.«125438_g61907658605231_cont_9to1c4b_501_23_alg».proof.Proof.KRunC
import proofs.«125438_g61907658605231_cont_9to1c4b_501_23_alg».proof.Proof.KRunD
import proofs.«125438_g61907658605231_cont_9to1c4b_501_23_alg».proof.Proof.Gen.Kernel.Skeleton
import proofs.«125438_g61907658605231_cont_9to1c4b_501_23_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Body

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three scratch buffers hold, as functions of the argument arrays

Nothing here evaluates an operation: each value is the body's own arithmetic (its named payloads) applied to the blocks the
pipeline stages. -/

/-- Point `n` of the grid of 50. -/
abbrev pt (n : Nat) (hn : n < 50) : Fin cfg0.N := ⟨n, lt_of_lt_of_eq hn (show cfg0.N = 50 from N_0).symm⟩

/-- The projected features, transposed (16 × 10000): what the first point leaves in the first scratch. -/
def H0 (c : Dev nD) : FVec F S16x10000 .f32 :=
  k0_pay1 (iblk m c 2 (pt 0 (by omega))) (iblk m c 0 (pt 0 (by omega)))

/-- Row band `b`'s propagated, rectified and re-projected features (1 × 16 × 400): slab `b` of the second scratch. -/
def G3 (c : Dev nD) (b : Nat) (hb : b < 25) : FVec F S1x16x400 .f32 :=
  k0_pay2 (H0 m c) (iblk m c 1 (pt b (by omega))) (iblk m c 3 (pt b (by omega)))

/-- The 25 bands side by side (16 × 10000): what point 25 leaves in the third scratch. -/
def GT (c : Dev nD) : FVec F S16x10000 .f32 :=
  k0_pay4 (k0_pay3 (k0_pay6 (G3 m c 0 (by omega))) (k0_pay7 (G3 m c 1 (by omega))) (k0_pay8 (G3 m c 2 (by omega))) (k0_pay9 (G3 m c 3 (by omega))) (k0_pay10 (G3 m c 4 (by omega))) (k0_pay11 (G3 m c 5 (by omega))) (k0_pay12 (G3 m c 6 (by omega))) (k0_pay13 (G3 m c 7 (by omega))) (k0_pay14 (G3 m c 8 (by omega))) (k0_pay15 (G3 m c 9 (by omega))) (k0_pay16 (G3 m c 10 (by omega))) (k0_pay17 (G3 m c 11 (by omega))) (k0_pay18 (G3 m c 12 (by omega))) (k0_pay19 (G3 m c 13 (by omega))) (k0_pay20 (G3 m c 14 (by omega))) (k0_pay21 (G3 m c 15 (by omega))) (k0_pay22 (G3 m c 16 (by omega))) (k0_pay23 (G3 m c 17 (by omega))) (k0_pay24 (G3 m c 18 (by omega))) (k0_pay25 (G3 m c 19 (by omega))) (k0_pay26 (G3 m c 20 (by omega))) (k0_pay27 (G3 m c 21 (by omega))) (k0_pay28 (G3 m c 22 (by omega))) (k0_pay29 (G3 m c 23 (by omega))) (G3 m c 24 (by omega)))

/-- The softmax block a point of the second sweep stores: its row band's class scores against `GT`. -/
def Out (c : Dev nD) (t : Fin cfg0.N) : FVec F S400x16 .f32 := k0_pay5 (GT m c) (iblk m c 1 t)

theorem slab_inb (b : Nat) (hb : b < 25) : ∀ a, (![b, 0, 0] : Fin 3 → Nat) a + S1x16x400.size a ≤ S25x16x400.size a := by
  intro a
  match a with
  | ⟨0, _⟩ => show b + 1 ≤ 25; omega
  | ⟨1, _⟩ => show 0 + 16 ≤ 16; omega
  | ⟨2, _⟩ => show 0 + 400 ≤ 400; omega

/-- What is known of the scratch buffers' contents before point `n`: the first holds the projected features from point 1 on;
    slab `b` of the second holds band `b`'s result once point `b` has run; the third holds the bands side by side from
    point 26 on. Before that, a buffer holds whatever it held. -/
structure Held (c : Dev nD) (n : Nat) (f6 : Vec F S16x10000 .f32) (f7 : Vec F S25x16x400 .f32) (f8 : Vec F S16x10000 .f32) : Prop where
  p6 : 1 ≤ n → f6 = H0 m c
  p7 : ∀ (b : Nat) (hb : b < 25), b < n →
    View.ld f7 (Rect.unit (s := S25x16x400) ![b, 0, 0] S1x16x400.size (slab_inb b hb)) = G3 m c b hb
  p8 : 26 ≤ n → f8 = GT m c

theorem held_zero (c : Dev nD) (f6 : Vec F S16x10000 .f32) (f7 : Vec F S25x16x400 .f32) (f8 : Vec F S16x10000 .f32) : Held m c 0 f6 f7 f8 :=
  ⟨fun h => absurd h (by omega), fun _ _ h => absurd h (Nat.not_lt_zero _), fun h => absurd h (by omega)⟩

/-- Once all 25 slabs are in place, laying them side by side gives `GT`. -/
theorem sbs_eq {c : Dev nD} {n : Nat} {f6 : Vec F S16x10000 .f32} {f7 : Vec F S25x16x400 .f32} {f8 : Vec F S16x10000 .f32}
    (h : Held m c n f6 f7 f8) (hn : 25 ≤ n) : sideBySide f7 = GT m c := by
  unfold sideBySide GT
  rw [h.p7 0 (by omega) (by omega), h.p7 1 (by omega) (by omega), h.p7 2 (by omega) (by omega), h.p7 3 (by omega) (by omega), h.p7 4 (by omega) (by omega), h.p7 5 (by omega) (by omega), h.p7 6 (by omega) (by omega), h.p7 7 (by omega) (by omega), h.p7 8 (by omega) (by omega), h.p7 9 (by omega) (by omega), h.p7 10 (by omega) (by omega), h.p7 11 (by omega) (by omega), h.p7 12 (by omega) (by omega), h.p7 13 (by omega) (by omega), h.p7 14 (by omega) (by omega), h.p7 15 (by omega) (by omega), h.p7 16 (by omega) (by omega), h.p7 17 (by omega) (by omega), h.p7 18 (by omega) (by omega), h.p7 19 (by omega) (by omega), h.p7 20 (by omega) (by omega), h.p7 21 (by omega) (by omega), h.p7 22 (by omega) (by omega), h.p7 23 (by omega) (by omega), h.p7 24 (by omega) (by omega)]

theorem heldA (c : Dev nD) (t : Fin cfg0.N) (hz : t.val = 0) (f7 : Vec F S25x16x400 .f32) (f8 : Vec F S16x10000 .f32)
    (h2 : c2 (grid0.coords t)) :
    Held m c (t.val + 1) (k0_pay1 (iblk m c 2 t) (iblk m c 0 t))
      (putAt sc7 (Memref.isWhole_whole _) f7 (k0_off1 (grid0.coords t)) (k0_off1_inb (grid0.coords t) h2)
        (k0_pay2 (k0_pay1 (iblk m c 2 t) (iblk m c 0 t)) (iblk m c 1 t) (iblk m c 3 t))) f8 := by
  have ht : t = pt 0 (by decide) := Fin.ext hz
  refine ⟨fun _ => ?_, fun b hb hlt => ?_, fun h => absurd h (by omega)⟩
  · subst ht; rfl
  · have hb0 : b = 0 := by omega
    subst hb0
    subst ht
    exact putAt_same _ _ _ _ _ _ 0 (off1_eq _) _

theorem heldB (c : Dev nD) (t : Fin cfg0.N) (h1 : 1 ≤ t.val) (hlt : t.val < 25) (f6 : Vec F S16x10000 .f32) (f7 : Vec F S25x16x400 .f32)
    (f8 : Vec F S16x10000 .f32) (hH : Held m c t.val f6 f7 f8) (h2 : c2 (grid0.coords t)) :
    Held m c (t.val + 1) f6
      (putAt sc7 (Memref.isWhole_whole _) f7 (k0_off1 (grid0.coords t)) (k0_off1_inb (grid0.coords t) h2)
        (k0_pay2 f6 (iblk m c 1 t) (iblk m c 3 t))) f8 := by
  have e6 := hH.p6 h1
  refine ⟨fun _ => e6, fun b hb hb' => ?_, fun h => absurd h (by omega)⟩
  by_cases hbt : b = t.val
  · subst hbt
    rw [putAt_same _ _ _ _ _ _ t.val (off1_eq t) _, e6]; rfl
  · rw [putAt_other _ _ _ _ _ _ t.val b (off1_eq t) hbt _]; exact hH.p7 b hb (by omega)

theorem heldC (c : Dev nD) (n : Nat) (hn : n = 25) (f6 : Vec F S16x10000 .f32) (f7 : Vec F S25x16x400 .f32) (f8 : Vec F S16x10000 .f32)
    (hH : Held m c n f6 f7 f8) : Held m c (n + 1) f6 f7 (sideBySide f7) :=
  ⟨fun _ => hH.p6 (by omega), fun b hb _ => hH.p7 b hb (by omega), fun _ => sbs_eq m hH (by omega)⟩

theorem heldD (c : Dev nD) (n : Nat) (hn : 26 ≤ n) (f6 : Vec F S16x10000 .f32) (f7 : Vec F S25x16x400 .f32) (f8 : Vec F S16x10000 .f32)
    (hH : Held m c n f6 f7 f8) : Held m c (n + 1) f6 f7 f8 :=
  ⟨fun _ => hH.p6 (by omega), fun b hb _ => hH.p7 b hb (by omega), fun _ => hH.p8 hn⟩

/-! ## The invariant and the proof data -/

/-- Before point `n`: the three scratch buffers at contents of which `Held` says what is known, and the generator register at
    some state. -/
def PhiS (c : Dev nD) (n : ℕ) : sProp 𝕄 :=
  iprop((∃ f6 f7 f8, ⌜Held m c n f6 f7 f8⌝ ∗ owns (c : Thread nD τ) sc6 fullShare f6 ∗ owns (c : Thread nD τ) sc7 fullShare f7
      ∗ owns (c : Thread nD τ) sc8 fullShare f8) ∗ (∃ r, prngReg c r))

/-- The proof data: the arrays as the region finds them; after the body each input's buffer still at its block and the result's
    buffer at the point's softmax block (which only the second sweep's points store: elsewhere the window is idle and the entry
    is not consulted); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Out m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem lv0 (c : Dev nD) (t : Fin cfg0.N) : (dats m 0 c).leavesExact 0 t = owns (c : Thread nD τ) (ms0 t) fullShare (iblk m c 0 t) := by
  unfold Dat.leavesExact; rw [live0 t, after0]
theorem lv1 (c : Dev nD) (t : Fin cfg0.N) : (dats m 0 c).leavesExact 1 t = owns (c : Thread nD τ) (ms1 t) fullShare (iblk m c 1 t) := by
  unfold Dat.leavesExact; rw [live1 t, after1]
theorem lv2 (c : Dev nD) (t : Fin cfg0.N) : (dats m 0 c).leavesExact 2 t = owns (c : Thread nD τ) (ms2 t) fullShare (iblk m c 2 t) := by
  unfold Dat.leavesExact; rw [live2 t, after2]
theorem lv3 (c : Dev nD) (t : Fin cfg0.N) : (dats m 0 c).leavesExact 3 t = owns (c : Thread nD τ) (ms3 t) fullShare (iblk m c 3 t) := by
  unfold Dat.leavesExact; rw [live3 t, after3]
theorem lv4 (c : Dev nD) (t : Fin cfg0.N) (h : 25 ≤ t.val) : (dats m 0 c).leavesExact 4 t = owns (c : Thread nD τ) (ms4 t) fullShare (Out m c t) := by
  unfold Dat.leavesExact; rw [live4 t h, after4]

set_option maxHeartbeats 4000000 in
/-- The body at any point. Which guarded parts run is decided by the point's position; the scratch buffers are handed to the
    run at whatever they hold and taken back with what is then known of them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [lv0, lv1, lv2, lv3]
  have hN : t.val < 50 := lt_of_lt_of_eq t.isLt (show cfg0.N = 50 from N_0)
  unfold PhiS
  rcases Nat.lt_or_ge t.val 25 with hlt | hge
  · rw [Dat.leavesExact_idle (dats m 0 c) 4 t (idle4 t hlt) (noFlush4 t hlt)]
    by_cases hz : t.val = 0
    · -- the first point
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ ((hc1 t).mpr hz) ((hc2 t).mpr hlt) (fun h => absurd ((hc3 t).mp h) (by omega)) (fun h => absurd ((hc4 t).mp h) (by omega)) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldA m c t hz f7 f8 ((hc2 t).mpr hlt)
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      iexists _; iexact H4
    · -- the rest of the first sweep
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ (fun h => absurd ((hc1 t).mp h) (by omega)) ((hc2 t).mpr hlt) (fun h => absurd ((hc3 t).mp h) (by omega)) (fun h => absurd ((hc4 t).mp h) (by omega)) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldB m c t (by omega) hlt f6 f7 f8 hH ((hc2 t).mpr hlt)
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      iexists _; iexact H4
  · rw [lv4 m c t hge]
    by_cases h25 : t.val = 25
    · -- point 25
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ (fun h => absurd ((hc1 t).mp h) (by omega)) (fun h => absurd ((hc2 t).mp h) (by omega)) ((hc3 t).mpr h25) ((hc4 t).mpr hge) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldC m c t.val h25 f6 f7 f8 hH
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      unfold Out; rw [← sbs_eq m hH (by omega)]; iexact H4
    · -- the rest of the second sweep
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      have e8 : f8 = GT m c := hH.p8 (by omega)
      subst e8
      iapply (runD c (grid0.coords t) _ _ _ _ _ _ _ _ _ _ _ _ _ _ _ _ (fun h => absurd ((hc1 t).mp h) (by omega)) (fun h => absurd ((hc2 t).mp h) (by omega)) (fun h => absurd ((hc3 t).mp h) (by omega)) ((hc4 t).mpr hge) (iblk m c 0 t) (iblk m c 1 t) (iblk m c 2 t) (iblk m c 3 t) _ f6 f7 (GT m c) Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldD m c t.val (by omega) f6 f7 (GT m c) hH
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      unfold Out; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is known of the scratch buffers: what the launch hands the region is the invariant there. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d6, H6⟩, ⟨%d7, H7⟩, ⟨%d8, H8⟩⟩, Hg⟩
  isplitl [H6 H7 H8]
  · iexists d6, d7, d8
    isplitr
    · ipureintro; exact held_zero m c d6 d7 d8
    isplitl [H6]; · iexact H6
    isplitl [H7]; · iexact H7
    iexact H8
  iexact Hg

/-- After the last point what is known of the scratch buffers is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%f6, %f7, %f8, %hH, H6, H7, H8⟩, Hg⟩
  isplitl [H6 H7 H8]
  · isplitl [H6]; · iexists _; iexact H6
    isplitl [H7]; · iexists _; iexact H7
    iexists _; iexact H8
  iexact Hg

/-! ## The run and the frame -/

set_option backward.isDefEq.respectTransparency.types false in
/-- Every weakly fair execution of @main terminates, nothing faulting, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Body
end
-- ==== Proof.BodyBase.lean ====
import proofs.«125438_g61907658605231_cont_9to1c4b_501_23_alg».proof.Proof.Gen.KernelIdeal.Frame
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The four branch conditions, as the body computes them from the grid coordinate, decided over the 50 points

The body has four guarded parts: the first at point 0 only (the features are projected once), the second at the 25 points
of the first sweep over the adjacency's row bands, the third at point 25 only (the per-band results are laid side by side),
the fourth at the 25 points of the second sweep. -/

abbrev c1 (i : grid0.Coords) : Prop := (Scalar.cmpi .ne (Scalar.extui (Scalar.cmpi .eq (BitVec.ofNat 32 (i 0).val) 0#32)) 0#32) = 1#1
abbrev c2 (i : grid0.Coords) : Prop := k0_cond2 i = 1#1
abbrev c3 (i : grid0.Coords) : Prop := (Scalar.cmpi .ne (Scalar.extui (Scalar.cmpi .eq (BitVec.ofNat 32 (i 0).val) 25#32)) 0#32) = 1#1
abbrev c4 (i : grid0.Coords) : Prop := k0_cond4 i = 1#1

theorem hc1 : ∀ t : Fin cfg0.N, c1 (grid0.coords t) ↔ t.val = 0 :=
  (by decide +kernel : ∀ t : Fin grid0.N, c1 (grid0.coords t) ↔ t.val = 0)
theorem hc2 : ∀ t : Fin cfg0.N, c2 (grid0.coords t) ↔ t.val < 25 :=
  (by decide +kernel : ∀ t : Fin grid0.N, c2 (grid0.coords t) ↔ t.val < 25)
theorem hc3 : ∀ t : Fin cfg0.N, c3 (grid0.coords t) ↔ t.val = 25 :=
  (by decide +kernel : ∀ t : Fin grid0.N, c3 (grid0.coords t) ↔ t.val = 25)
theorem hc4 : ∀ t : Fin cfg0.N, c4 (grid0.coords t) ↔ 25 ≤ t.val :=
  (by decide +kernel : ∀ t : Fin grid0.N, c4 (grid0.coords t) ↔ 25 ≤ t.val)

/-- The slab of the per-band scratch the second part reads and writes at point `t` is slab `t`. -/
theorem off1_eq : ∀ t : Fin cfg0.N, k0_off1 (grid0.coords t) = ![t.val, 0, 0] :=
  (by decide +kernel : ∀ t : Fin grid0.N, k0_off1 (grid0.coords t) = ![t.val, 0, 0])

/-! ## Where the result window is idle, and where it is written back -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- During the first sweep nothing is stored into the result's block: the window is idle, -/
theorem idle4 : ∀ t : Fin cfg0.N, t.val < 25 → cfg0.idle 4 (grid0.coords t) = true := by decide +kernel
/-- and its block is not written back there; -/
theorem noFlush4 : ∀ t : Fin cfg0.N, t.val < 25 → (cfg0.win 4).flush t = false := by decide +kernel
/-- during the second sweep every point stores the whole block. -/
theorem live4 : ∀ t : Fin cfg0.N, 25 ≤ t.val → cfg0.idle 4 (grid0.coords t) = false := by decide +kernel

/-! ## The memrefs the body is called with -/

abbrev ms0 (t : Fin cfg0.N) : Memref sig .tc .vmem S10000x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S400x10000 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x16 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S16x16 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S400x16 .f32 := win0_4.stage (cfg0.slots t 4)
abbrev hs4 (t : Fin cfg0.N) : (ms4 t).IsWhole := hstage0_4 ((cfg0.slots t 4).cast nbuf0_4)
/-- The three scratch operands: the projected features (transposed), the per-band results, and those laid side by side. -/
abbrev sc6 : Memref sig .tc .vmem S16x10000 .f32 := Memref.whole cc0_scratch0
abbrev sc7 : Memref sig .tc .vmem S25x16x400 .f32 := Memref.whole cc0_scratch1
abbrev sc8 : Memref sig .tc .vmem S16x10000 .f32 := Memref.whole cc0_scratch2

/-- What the launch hands the body besides the windows: the three scratch buffers at some contents each, and the
    generator register at some state. -/
theorem PhiA_eq (c : Dev nD) :
    (Pipeline.ΦA spec0 c : sProp 𝕄)
      = iprop(iprop((∃ d, owns (c : Thread nD τ) sc6 fullShare d) ∗ (∃ d, owns (c : Thread nD τ) sc7 fullShare d) ∗ (∃ d, owns (c : Thread nD τ) sc8 fullShare d)) ∗ (∃ r, prngReg c r)) := by
  unfold Pipeline.ΦA; rw [scopedRest0_eq]; simp only [sc6, sc7, sc8, owns_whole]; try rfl

/-! ## Reading back a buffer after stores -/

section ReadBack
variable {Val : EltTy → Type} [∀ e, Nonempty (Val e)] {sg : RefSig} {κ : Kind} {sp : Space} {S : Shape} {e : EltTy}

/-- A store through the whole buffer leaves its payload, whatever was there. -/
theorem read_store_whole (v : View sg κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : View.Piece Val S e)]) = w := by
  subst h
  rw [View.read_writes_eq_canon _ _ _ (fun y => ⟨_, List.mem_singleton_self _, by
    show y ∈ (Rect.whole S).set; rw [Rect.set_whole]; exact Finset.mem_univ y⟩), View.canon_unit_zero rfl]

end ReadBack

theorem hz2 : (![0, 0] : Fin 2 → Nat) = fun _ => 0 := by funext a; fin_cases a <;> rfl

end Cert.KernelIdeal.Body
end
-- ==== Proof.Slab.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One slab of the per-band scratch

The per-band scratch has 25 slabs of 16 × 400, one per row band of the adjacency. A point of the first sweep stores ONE slab
and leaves the others alone; point 25 reads all of them. -/

/-- The scratch's contents after a store of `w` through the slab at offset `off`, over contents `f7`. -/
def putAt (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) : Vec F S25x16x400 .f32 :=
  m7.view.read (Elt F) (m7.view.writes (Elt F) (h7.unread f7) [(⟨Rect.unit off S1x16x400.size hinb, w⟩ : View.Piece (Elt F) S25x16x400 .f32)])

/-- The stored slab reads back as what was stored. -/
theorem putAt_same (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) (n : Nat) (ho : off = ![n, 0, 0])
    (hb : ∀ a, (![n, 0, 0] : Fin 3 → Nat) a + S1x16x400.size a ≤ S25x16x400.size a) :
    View.ld (putAt m7 h7 f7 off hinb w) (Rect.unit (s := S25x16x400) ![n, 0, 0] S1x16x400.size hb) = w := by
  subst ho; funext x
  exact View.read_writes_cons_emb _ _ (Rect.unit (s := S25x16x400) ![n, 0, 0] S1x16x400.size hinb) w [] x

/-- Every other slab reads as before. -/
theorem putAt_other (m7 : Memref sig .tc .vmem S25x16x400 .f32) (h7 : m7.IsWhole) (f7 : Vec F S25x16x400 .f32) (off : Fin 3 → Nat)
    (hinb : ∀ a, off a + S1x16x400.size a ≤ S25x16x400.size a) (w : Vec F S1x16x400 .f32) (n b : Nat) (ho : off = ![n, 0, 0]) (hne : b ≠ n)
    (hb : ∀ a, (![b, 0, 0] : Fin 3 → Nat) a + S1x16x400.size a ≤ S25x16x400.size a) :
    View.ld (putAt m7 h7 f7 off hinb w) (Rect.unit (s := S25x16x400) ![b, 0, 0] S1x16x400.size hb)
      = View.ld f7 (Rect.unit (s := S25x16x400) ![b, 0, 0] S1x16x400.size hb) := by
  subst ho; funext x
  show m7.view.read (Elt F) (m7.view.writes (Elt F) (h7.unread f7) [_]) ((Rect.unit (s := S25x16x400) ![b, 0, 0] S1x16x400.size hb).idx x)
    = f7 ((Rect.unit (s := S25x16x400) ![b, 0, 0] S1x16x400.size hb).idx x)
  rw [View.read_writes_apply_of_forall_not_mem _ _ _ _ (fun p hp => ?_), h7.read_unread]
  obtain rfl := List.mem_singleton.mp hp
  rw [Rect.mem_set_unit]
  intro h
  have h0 := h 0
  have e : (((Rect.unit (s := S25x16x400) ![b, 0, 0] S1x16x400.size hb).idx x) 0 : Nat) = b + 1 * (x 0 : Nat) := rfl
  have hx : (x 0 : Nat) < 1 := (x 0).isLt
  have s0 : S1x16x400.size 0 = 1 := rfl
  have o0 : (![n, 0, 0] : Fin 3 → Nat) 0 = n := rfl
  rw [e, o0, s0] at h0
  omega

end Cert.KernelIdeal.Body
end
-- ==== Proof.RunA.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Slab
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first point (the first two guarded parts run): the features are projected by the first weights, once, and kept
    transposed in the first scratch; then the first row band is processed as at every point of the first sweep, reading that
    scratch back. -/
theorem runA (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : c1 i) (h2 : c2 i) (h3 : ¬c3 i) (h4 : ¬c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (k0_pay1 x3 x1) ∗ owns (c : Thread nD τ) arg7 fullShare (putAt arg7 harg7 f7 (k0_off1 i) (k0_off1_inb i h2) (k0_pay2 (k0_pay1 x3 x1) x2 x4)) ∗ owns (c : Thread nD τ) arg8 fullShare (f8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    swap; · iexact H6
    ipureintro
    sl_unfold_words
    rw [read_store_whole _ _ hz2]
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  isplitl [H7]
  · iexists _; isplitr
    swap; · iexact H7
    ipureintro
    unfold putAt
    sl_unfold_words
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  iexists _; isplitr
  · ipureintro; exact harg8.read_unread _
  iexact H8

end Cert.KernelIdeal.Body
end
-- ==== Proof.RunB.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Slab
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point of the first sweep after its first (only the second guarded part runs): the point's row band of the adjacency
    against the projected features, rectified, then projected by the second weights, stored through the point's slab of the
    per-band scratch. Everything else is handed back as it was found. -/
theorem runB (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : c2 i) (h3 : ¬c3 i) (h4 : ¬c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (x5)
            ∗ owns (c : Thread nD τ) arg6 fullShare (f6) ∗ owns (c : Thread nD τ) arg7 fullShare (putAt arg7 harg7 f7 (k0_off1 i) (k0_off1_inb i h2) (k0_pay2 f6 x2 x4)) ∗ owns (c : Thread nD τ) arg8 fullShare (f8)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    · ipureintro; exact harg5.read_unread _
    iexact H5
  isplitl [H6]
  · iexists _; isplitr
    · ipureintro; exact harg6.read_unread _
    iexact H6
  isplitl [H7]
  · iexists _; isplitr
    swap; · iexact H7
    ipureintro
    unfold putAt
    simp only [View.readAt_eq_ld, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  iexists _; isplitr
  · ipureintro; exact harg8.read_unread _
  iexact H8

end Cert.KernelIdeal.Body
end
-- ==== Proof.RunC.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Slab
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The 25 slabs of the per-band scratch laid side by side along the columns: the 16 × 10000 matrix the second sweep
    multiplies the adjacency's row bands with. -/
def sideBySide (f7 : Vec F S25x16x400 .f32) : FVec F S16x10000 .f32 :=
  k0_pay4 (k0_pay3
      (k0_pay6 (View.ld f7 (Rect.unit (s := S25x16x400) ![0, 0, 0] S1x16x400.size inb_S25x16x400_S1x16x400_0_0_0)))
      (k0_pay7 (View.ld f7 (Rect.unit (s := S25x16x400) ![1, 0, 0] S1x16x400.size inb_S25x16x400_S1x16x400_1_0_0)))
      (k0_pay8 (View.ld f7 (Rect.unit (s := S25x16x400) ![2, 0, 0] S1x16x400.size inb_S25x16x400_S1x16x400_2_0_0)))
      (k0_pay9 (View.ld f7 (Rect.unit (s := S25x16x400) ![3, 0, 0] S1x16x400.size inb_S25x16x400_S1x16x400_3_0_0)))
      (k0_pay10 (View.ld f7 (Rect.unit (s := S25x16x400) ![4, 0, 0] S1x16x400.size inb_S25x16x400_S1x16x400_4_0_0)))
      (k0_pay11 (View.ld f7 (Rect.unit (s := S25x16x400) ![5, 0, 0] S1x16x400.size inb_S25x16x400_S1x16x400_5_0_0)))
      (k0_pay12 (View.ld f7 (Rect.unit (s := S25x16x400) ![6, 0, 0] S1x16x400.size inb_S25x16x400_S1x16x400_6_0_0)))
      (k0_pay13 (View.ld f7 (Rect.unit (s := S25x16x400) ![7, 0, 0] S1x16x400.size inb_S25x16x400_S1x16x400_7_0_0)))
      (k0_pay14 (View.ld f7 (Rect.unit (s := S25x16x400) ![8, 0, 0] S1x16x400.size inb_S25x16x400_S1x16x400_8_0_0)))
      (k0_pay15 (View.ld f7 (Rect.unit (s := S25x16x400) ![9, 0, 0] S1x16x400.size inb_S25x16x400_S1x16x400_9_0_0)))
      (k0_pay16 (View.ld f7 (Rect.unit (s := S25x16x400) ![10, 0, 0] S1x16x400.size inb_S25x16x400_S1x16x400_10_0_0)))
      (k0_pay17 (View.ld f7 (Rect.unit (s := S25x16x400) ![11, 0, 0] S1x16x400.size inb_S25x16x400_S1x16x400_11_0_0)))
      (k0_pay18 (View.ld f7 (Rect.unit (s := S25x16x400) ![12, 0, 0] S1x16x400.size inb_S25x16x400_S1x16x400_12_0_0)))
      (k0_pay19 (View.ld f7 (Rect.unit (s := S25x16x400) ![13, 0, 0] S1x16x400.size inb_S25x16x400_S1x16x400_13_0_0)))
      (k0_pay20 (View.ld f7 (Rect.unit (s := S25x16x400) ![14, 0, 0] S1x16x400.size inb_S25x16x400_S1x16x400_14_0_0)))
      (k0_pay21 (View.ld f7 (Rect.unit (s := S25x16x400) ![15, 0, 0] S1x16x400.size inb_S25x16x400_S1x16x400_15_0_0)))
      (k0_pay22 (View.ld f7 (Rect.unit (s := S25x16x400) ![16, 0, 0] S1x16x400.size inb_S25x16x400_S1x16x400_16_0_0)))
      (k0_pay23 (View.ld f7 (Rect.unit (s := S25x16x400) ![17, 0, 0] S1x16x400.size inb_S25x16x400_S1x16x400_17_0_0)))
      (k0_pay24 (View.ld f7 (Rect.unit (s := S25x16x400) ![18, 0, 0] S1x16x400.size inb_S25x16x400_S1x16x400_18_0_0)))
      (k0_pay25 (View.ld f7 (Rect.unit (s := S25x16x400) ![19, 0, 0] S1x16x400.size inb_S25x16x400_S1x16x400_19_0_0)))
      (k0_pay26 (View.ld f7 (Rect.unit (s := S25x16x400) ![20, 0, 0] S1x16x400.size inb_S25x16x400_S1x16x400_20_0_0)))
      (k0_pay27 (View.ld f7 (Rect.unit (s := S25x16x400) ![21, 0, 0] S1x16x400.size inb_S25x16x400_S1x16x400_21_0_0)))
      (k0_pay28 (View.ld f7 (Rect.unit (s := S25x16x400) ![22, 0, 0] S1x16x400.size inb_S25x16x400_S1x16x400_22_0_0)))
      (k0_pay29 (View.ld f7 (Rect.unit (s := S25x16x400) ![23, 0, 0] S1x16x400.size inb_S25x16x400_S1x16x400_23_0_0)))
      (View.ld f7 (Rect.unit (s := S25x16x400) ![24, 0, 0] S1x16x400.size inb_S25x16x400_S1x16x400_24_0_0)))

/-- Point 25 (the last two guarded parts run): the 25 slabs are read and laid side by side into the third scratch; then the
    first row band of the second sweep is processed as at every point of that sweep, reading that scratch back. -/
theorem runC (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : ¬c2 i) (h3 : c3 i) (h4 : c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay5 (sideBySide f7) x2)
            ∗ owns (c : Thread nD τ) arg6 fullShare (f6) ∗ owns (c : Thread nD τ) arg7 fullShare (f7) ∗ owns (c : Thread nD τ) arg8 fullShare (sideBySide f7)) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    sl_unfold_words
    rw [read_store_whole _ _ hz2]
    simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
    rfl
  isplitl [H6]
  · iexists _; isplitr
    · ipureintro; exact harg6.read_unread _
    iexact H6
  isplitl [H7]
  · iexists _; isplitr
    · ipureintro; exact harg7.read_unread _
    iexact H7
  iexists _; isplitr
  swap; · iexact H8
  ipureintro
  sl_unfold_words
  rw [read_store_whole _ _ hz2]
  simp only [View.readAt_eq_ld, View.readCov_unit_zero (S := S16x10000) arg6.view hz2, View.readCov_unit_zero (S := S16x10000) arg8.view hz2, harg1.read_unread, harg2.read_unread, harg3.read_unread, harg4.read_unread, harg6.read_unread, harg7.read_unread, harg8.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  rfl

end Cert.KernelIdeal.Body
end
-- ==== Proof.RunD.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A point of the second sweep after its first (only the last guarded part runs): the class scores of the point's row band
    against the side-by-side scratch, their softmax over the classes, transposed, stored through the whole result block.
    Everything else is handed back as it was found. -/
theorem runD (c : Dev nD) (i : grid0.Coords) (arg1 : Memref sig .tc .vmem S10000x128 .f32) (harg1 : arg1.IsWhole) (arg2 : Memref sig .tc .vmem S400x10000 .f32) (harg2 : arg2.IsWhole) (arg3 : Memref sig .tc .vmem S128x16 .f32) (harg3 : arg3.IsWhole) (arg4 : Memref sig .tc .vmem S16x16 .f32) (harg4 : arg4.IsWhole) (arg5 : Memref sig .tc .vmem S400x16 .f32) (harg5 : arg5.IsWhole) (arg6 : Memref sig .tc .vmem S16x10000 .f32) (harg6 : arg6.IsWhole) (arg7 : Memref sig .tc .vmem S25x16x400 .f32) (harg7 : arg7.IsWhole) (arg8 : Memref sig .tc .vmem S16x10000 .f32) (harg8 : arg8.IsWhole)
    (h1 : ¬c1 i) (h2 : ¬c2 i) (h3 : ¬c3 i) (h4 : c4 i)
    (x1 : Vec F S10000x128 .f32) (x2 : Vec F S400x10000 .f32) (x3 : Vec F S128x16 .f32) (x4 : Vec F S16x16 .f32)
    (x5 : Vec F S400x16 .f32) (f6 : Vec F S16x10000 .f32) (f7 : Vec F S25x16x400 .f32) (f8 : Vec F S16x10000 .f32)
    (E : Set ℕ) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5
        ∗ owns (c : Thread nD τ) arg6 fullShare f6 ∗ owns (c : Thread nD τ) arg7 fullShare f7 ∗ owns (c : Thread nD τ) arg8 fullShare f8
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (k0_pay5 f8 x2)
            ∗ owns (c : Thread nD τ) arg6 fullShare f6 ∗ owns (c : Thread nD τ) arg7 fullShare f7 ∗ owns (c : Thread nD τ) arg8 fullShare f8) -∗ K ⟨⟩))
      ⊢ wp frame (wpE (defs₀ (F := F)) Variants.none c none) E (cc0__gcn_kernel i arg1 harg1 arg2 harg2 arg3 harg3 arg4 harg4 arg5 harg5 arg6 harg6 arg7 harg7 arg8 harg8) K := by
  simp only [cc0__gcn_kernel_eq_skeleton]; unfold cc0__gcn_kernel_skel
  unfold owns
  iintro ⟨⟨%g1, %hg1, H1⟩, ⟨%g2, %hg2, H2⟩, ⟨%g3, %hg3, H3⟩, ⟨%g4, %hg4, H4⟩, ⟨%g5, %hg5, H5⟩, ⟨%g6, %hg6, H6⟩, ⟨%g7, %hg7, H7⟩, ⟨%g8, %hg8, H8⟩, Hk⟩
  obtain rfl := harg1.eq_unread hg1; obtain rfl := harg2.eq_unread hg2; obtain rfl := harg3.eq_unread hg3; obtain rfl := harg4.eq_unread hg4
  obtain rfl := harg5.eq_unread hg5; obtain rfl := harg6.eq_unread hg6; obtain rfl := harg7.eq_unread hg7; obtain rfl := harg8.eq_unread hg8
  sl_exec (disch := first | exact h1 | exact h2 | exact h3 | exact h4)
  sl_step
  iapply Hk
  isplitl [H1]
  · iexists _; isplitr
    · ipureintro; exact harg1.read_unread _
    iexact H1
  isplitl [H2]
  · iexists _; isplitr
    · ipureintro; exact harg2.read_unread _
    iexact H2
  isplitl [H3]
  · iexists _; isplitr
    · ipureintro; exact harg3.read_unread _
    iexact H3
  isplitl [H4]
  · iexists _; isplitr
    · ipureintro; exact harg4.read_unread _
    iexact H4
  isplitl [H5]
  · iexists _; isplitr
    swap; · iexact H5
    ipureintro
    rw [read_store_whole _ _ hz2]
    simp only [View.readAt_eq_ld, harg8.read_unread, harg2.read_unread, View.ld_unit_zero (S := S16x10000) hz2, View.ld_unit_zero (S := S400x10000) hz2, View.ld_unit_zero (S := S16x16) hz2, View.ld_unit_zero (S := S128x16) hz2, View.ld_unit_zero (S := S10000x128) hz2, View.ld_unit_zero (S := S400x16) hz2]
  isplitl [H6]
  · iexists _; isplitr
    · ipureintro; exact harg6.read_unread _
    iexact H6
  isplitl [H7]
  · iexists _; isplitr
    · ipureintro; exact harg7.read_unread _
    iexact H7
  iexists _; isplitr
  · ipureintro; exact harg8.read_unread _
  iexact H8

end Cert.KernelIdeal.Body
end
-- ==== Proof.Body.lean ====
import proofs.«125438_g61907658605231_cont_9to1c4b_501_23_alg».proof.Proof.Gen.KernelIdeal.Frame
import proofs.«125438_g61907658605231_cont_9to1c4b_501_23_alg».proof.Proof.BodyBase
import proofs.«125438_g61907658605231_cont_9to1c4b_501_23_alg».proof.Proof.Slab
import proofs.«125438_g61907658605231_cont_9to1c4b_501_23_alg».proof.Proof.RunA
import proofs.«125438_g61907658605231_cont_9to1c4b_501_23_alg».proof.Proof.RunB
import proofs.«125438_g61907658605231_cont_9to1c4b_501_23_alg».proof.Proof.RunC
import proofs.«125438_g61907658605231_cont_9to1c4b_501_23_alg».proof.Proof.RunD
import proofs.«125438_g61907658605231_cont_9to1c4b_501_23_alg».proof.Proof.Gen.KernelIdeal.Skeleton
import proofs.«125438_g61907658605231_cont_9to1c4b_501_23_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Body

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the three scratch buffers hold, as functions of the argument arrays

Nothing here evaluates an operation: each value is the body's own arithmetic (its named payloads) applied to the blocks the
pipeline stages. -/

/-- Point `n` of the grid of 50. -/
abbrev pt (n : Nat) (hn : n < 50) : Fin cfg0.N := ⟨n, lt_of_lt_of_eq hn (show cfg0.N = 50 from N_0).symm⟩

/-- The projected features, transposed (16 × 10000): what the first point leaves in the first scratch. -/
def H0 (c : Dev nD) : FVec F S16x10000 .f32 :=
  k0_pay1 (iblk m c 2 (pt 0 (by omega))) (iblk m c 0 (pt 0 (by omega)))

/-- Row band `b`'s propagated, rectified and re-projected features (1 × 16 × 400): slab `b` of the second scratch. -/
def G3 (c : Dev nD) (b : Nat) (hb : b < 25) : FVec F S1x16x400 .f32 :=
  k0_pay2 (H0 m c) (iblk m c 1 (pt b (by omega))) (iblk m c 3 (pt b (by omega)))

/-- The 25 bands side by side (16 × 10000): what point 25 leaves in the third scratch. -/
def GT (c : Dev nD) : FVec F S16x10000 .f32 :=
  k0_pay4 (k0_pay3 (k0_pay6 (G3 m c 0 (by omega))) (k0_pay7 (G3 m c 1 (by omega))) (k0_pay8 (G3 m c 2 (by omega))) (k0_pay9 (G3 m c 3 (by omega))) (k0_pay10 (G3 m c 4 (by omega))) (k0_pay11 (G3 m c 5 (by omega))) (k0_pay12 (G3 m c 6 (by omega))) (k0_pay13 (G3 m c 7 (by omega))) (k0_pay14 (G3 m c 8 (by omega))) (k0_pay15 (G3 m c 9 (by omega))) (k0_pay16 (G3 m c 10 (by omega))) (k0_pay17 (G3 m c 11 (by omega))) (k0_pay18 (G3 m c 12 (by omega))) (k0_pay19 (G3 m c 13 (by omega))) (k0_pay20 (G3 m c 14 (by omega))) (k0_pay21 (G3 m c 15 (by omega))) (k0_pay22 (G3 m c 16 (by omega))) (k0_pay23 (G3 m c 17 (by omega))) (k0_pay24 (G3 m c 18 (by omega))) (k0_pay25 (G3 m c 19 (by omega))) (k0_pay26 (G3 m c 20 (by omega))) (k0_pay27 (G3 m c 21 (by omega))) (k0_pay28 (G3 m c 22 (by omega))) (k0_pay29 (G3 m c 23 (by omega))) (G3 m c 24 (by omega)))

/-- The softmax block a point of the second sweep stores: its row band's class scores against `GT`. -/
def Out (c : Dev nD) (t : Fin cfg0.N) : FVec F S400x16 .f32 := k0_pay5 (GT m c) (iblk m c 1 t)

theorem slab_inb (b : Nat) (hb : b < 25) : ∀ a, (![b, 0, 0] : Fin 3 → Nat) a + S1x16x400.size a ≤ S25x16x400.size a := by
  intro a
  match a with
  | ⟨0, _⟩ => show b + 1 ≤ 25; omega
  | ⟨1, _⟩ => show 0 + 16 ≤ 16; omega
  | ⟨2, _⟩ => show 0 + 400 ≤ 400; omega

/-- What is known of the scratch buffers' contents before point `n`: the first holds the projected features from point 1 on;
    slab `b` of the second holds band `b`'s result once point `b` has run; the third holds the bands side by side from
    point 26 on. Before that, a buffer holds whatever it held. -/
structure Held (c : Dev nD) (n : Nat) (f6 : Vec F S16x10000 .f32) (f7 : Vec F S25x16x400 .f32) (f8 : Vec F S16x10000 .f32) : Prop where
  p6 : 1 ≤ n → f6 = H0 m c
  p7 : ∀ (b : Nat) (hb : b < 25), b < n →
    View.ld f7 (Rect.unit (s := S25x16x400) ![b, 0, 0] S1x16x400.size (slab_inb b hb)) = G3 m c b hb
  p8 : 26 ≤ n → f8 = GT m c

theorem held_zero (c : Dev nD) (f6 : Vec F S16x10000 .f32) (f7 : Vec F S25x16x400 .f32) (f8 : Vec F S16x10000 .f32) : Held m c 0 f6 f7 f8 :=
  ⟨fun h => absurd h (by omega), fun _ _ h => absurd h (Nat.not_lt_zero _), fun h => absurd h (by omega)⟩

/-- Once all 25 slabs are in place, laying them side by side gives `GT`. -/
theorem sbs_eq {c : Dev nD} {n : Nat} {f6 : Vec F S16x10000 .f32} {f7 : Vec F S25x16x400 .f32} {f8 : Vec F S16x10000 .f32}
    (h : Held m c n f6 f7 f8) (hn : 25 ≤ n) : sideBySide f7 = GT m c := by
  unfold sideBySide GT
  rw [h.p7 0 (by omega) (by omega), h.p7 1 (by omega) (by omega), h.p7 2 (by omega) (by omega), h.p7 3 (by omega) (by omega), h.p7 4 (by omega) (by omega), h.p7 5 (by omega) (by omega), h.p7 6 (by omega) (by omega), h.p7 7 (by omega) (by omega), h.p7 8 (by omega) (by omega), h.p7 9 (by omega) (by omega), h.p7 10 (by omega) (by omega), h.p7 11 (by omega) (by omega), h.p7 12 (by omega) (by omega), h.p7 13 (by omega) (by omega), h.p7 14 (by omega) (by omega), h.p7 15 (by omega) (by omega), h.p7 16 (by omega) (by omega), h.p7 17 (by omega) (by omega), h.p7 18 (by omega) (by omega), h.p7 19 (by omega) (by omega), h.p7 20 (by omega) (by omega), h.p7 21 (by omega) (by omega), h.p7 22 (by omega) (by omega), h.p7 23 (by omega) (by omega), h.p7 24 (by omega) (by omega)]

theorem heldA (c : Dev nD) (t : Fin cfg0.N) (hz : t.val = 0) (f7 : Vec F S25x16x400 .f32) (f8 : Vec F S16x10000 .f32)
    (h2 : c2 (grid0.coords t)) :
    Held m c (t.val + 1) (k0_pay1 (iblk m c 2 t) (iblk m c 0 t))
      (putAt sc7 (Memref.isWhole_whole _) f7 (k0_off1 (grid0.coords t)) (k0_off1_inb (grid0.coords t) h2)
        (k0_pay2 (k0_pay1 (iblk m c 2 t) (iblk m c 0 t)) (iblk m c 1 t) (iblk m c 3 t))) f8 := by
  have ht : t = pt 0 (by decide) := Fin.ext hz
  refine ⟨fun _ => ?_, fun b hb hlt => ?_, fun h => absurd h (by omega)⟩
  · subst ht; rfl
  · have hb0 : b = 0 := by omega
    subst hb0
    subst ht
    exact putAt_same _ _ _ _ _ _ 0 (off1_eq _) _

theorem heldB (c : Dev nD) (t : Fin cfg0.N) (h1 : 1 ≤ t.val) (hlt : t.val < 25) (f6 : Vec F S16x10000 .f32) (f7 : Vec F S25x16x400 .f32)
    (f8 : Vec F S16x10000 .f32) (hH : Held m c t.val f6 f7 f8) (h2 : c2 (grid0.coords t)) :
    Held m c (t.val + 1) f6
      (putAt sc7 (Memref.isWhole_whole _) f7 (k0_off1 (grid0.coords t)) (k0_off1_inb (grid0.coords t) h2)
        (k0_pay2 f6 (iblk m c 1 t) (iblk m c 3 t))) f8 := by
  have e6 := hH.p6 h1
  refine ⟨fun _ => e6, fun b hb hb' => ?_, fun h => absurd h (by omega)⟩
  by_cases hbt : b = t.val
  · subst hbt
    rw [putAt_same _ _ _ _ _ _ t.val (off1_eq t) _, e6]; rfl
  · rw [putAt_other _ _ _ _ _ _ t.val b (off1_eq t) hbt _]; exact hH.p7 b hb (by omega)

theorem heldC (c : Dev nD) (n : Nat) (hn : n = 25) (f6 : Vec F S16x10000 .f32) (f7 : Vec F S25x16x400 .f32) (f8 : Vec F S16x10000 .f32)
    (hH : Held m c n f6 f7 f8) : Held m c (n + 1) f6 f7 (sideBySide f7) :=
  ⟨fun _ => hH.p6 (by omega), fun b hb _ => hH.p7 b hb (by omega), fun _ => sbs_eq m hH (by omega)⟩

theorem heldD (c : Dev nD) (n : Nat) (hn : 26 ≤ n) (f6 : Vec F S16x10000 .f32) (f7 : Vec F S25x16x400 .f32) (f8 : Vec F S16x10000 .f32)
    (hH : Held m c n f6 f7 f8) : Held m c (n + 1) f6 f7 f8 :=
  ⟨fun _ => hH.p6 (by omega), fun b hb _ => hH.p7 b hb (by omega), fun _ => hH.p8 hn⟩

/-! ## The invariant and the proof data -/

/-- Before point `n`: the three scratch buffers at contents of which `Held` says what is known, and the generator register at
    some state. -/
def PhiS (c : Dev nD) (n : ℕ) : sProp 𝕄 :=
  iprop((∃ f6 f7 f8, ⌜Held m c n f6 f7 f8⌝ ∗ owns (c : Thread nD τ) sc6 fullShare f6 ∗ owns (c : Thread nD τ) sc7 fullShare f7
      ∗ owns (c : Thread nD τ) sc8 fullShare f8) ∗ (∃ r, prngReg c r))

/-- The proof data: the arrays as the region finds them; after the body each input's buffer still at its block and the result's
    buffer at the point's softmax block (which only the second sweep's points store: elsewhere the window is idle and the entry
    is not consulted); the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Out m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = Out m c t := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem lv0 (c : Dev nD) (t : Fin cfg0.N) : (dats m 0 c).leavesExact 0 t = owns (c : Thread nD τ) (ms0 t) fullShare (iblk m c 0 t) := by
  unfold Dat.leavesExact; rw [live0 t, after0]
theorem lv1 (c : Dev nD) (t : Fin cfg0.N) : (dats m 0 c).leavesExact 1 t = owns (c : Thread nD τ) (ms1 t) fullShare (iblk m c 1 t) := by
  unfold Dat.leavesExact; rw [live1 t, after1]
theorem lv2 (c : Dev nD) (t : Fin cfg0.N) : (dats m 0 c).leavesExact 2 t = owns (c : Thread nD τ) (ms2 t) fullShare (iblk m c 2 t) := by
  unfold Dat.leavesExact; rw [live2 t, after2]
theorem lv3 (c : Dev nD) (t : Fin cfg0.N) : (dats m 0 c).leavesExact 3 t = owns (c : Thread nD τ) (ms3 t) fullShare (iblk m c 3 t) := by
  unfold Dat.leavesExact; rw [live3 t, after3]
theorem lv4 (c : Dev nD) (t : Fin cfg0.N) (h : 25 ≤ t.val) : (dats m 0 c).leavesExact 4 t = owns (c : Thread nD τ) (ms4 t) fullShare (Out m c t) := by
  unfold Dat.leavesExact; rw [live4 t h, after4]

set_option maxHeartbeats 4000000 in
/-- The body at any point. Which guarded parts run is decided by the point's position; the scratch buffers are handed to the
    run at whatever they hold and taken back with what is then known of them. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [lv0, lv1, lv2, lv3]
  have hN : t.val < 50 := lt_of_lt_of_eq t.isLt (show cfg0.N = 50 from N_0)
  unfold PhiS
  rcases Nat.lt_or_ge t.val 25 with hlt | hge
  · rw [Dat.leavesExact_idle (dats m 0 c) 4 t (idle4 t hlt) (noFlush4 t hlt)]
    by_cases hz : t.val = 0
    · -- the first point
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runA c (grid0.coords t) _ _ _ _ _ _ _ _ _ _ _ _ _ _ _ _ ((hc1 t).mpr hz) ((hc2 t).mpr hlt) (fun h => absurd ((hc3 t).mp h) (by omega)) (fun h => absurd ((hc4 t).mp h) (by omega)) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldA m c t hz f7 f8 ((hc2 t).mpr hlt)
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      iexists _; iexact H4
    · -- the rest of the first sweep
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runB c (grid0.coords t) _ _ _ _ _ _ _ _ _ _ _ _ _ _ _ _ (fun h => absurd ((hc1 t).mp h) (by omega)) ((hc2 t).mpr hlt) (fun h => absurd ((hc3 t).mp h) (by omega)) (fun h => absurd ((hc4 t).mp h) (by omega)) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldB m c t (by omega) hlt f6 f7 f8 hH ((hc2 t).mpr hlt)
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      iexists _; iexact H4
  · rw [lv4 m c t hge]
    by_cases h25 : t.val = 25
    · -- point 25
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      iapply (runC c (grid0.coords t) _ _ _ _ _ _ _ _ _ _ _ _ _ _ _ _ (fun h => absurd ((hc1 t).mp h) (by omega)) (fun h => absurd ((hc2 t).mp h) (by omega)) ((hc3 t).mpr h25) ((hc4 t).mpr hge) (iblk m c 0 t) (iblk m c 1 t) (iblk m c 2 t) (iblk m c 3 t) _ f6 f7 f8 Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldC m c t.val h25 f6 f7 f8 hH
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      unfold Out; rw [← sbs_eq m hH (by omega)]; iexact H4
    · -- the rest of the second sweep
      iintro ⟨⟨⟨%f6, %f7, %f8, %hH, H6, H7, H8⟩, Hg⟩, Ho, ⟨%d0, H0⟩, ⟨%d1, H1⟩, ⟨%d2, H2⟩, ⟨%d3, H3⟩, ⟨%d4, H4⟩⟩
      have e8 : f8 = GT m c := hH.p8 (by omega)
      subst e8
      iapply (runD c (grid0.coords t) _ _ _ _ _ _ _ _ _ _ _ _ _ _ _ _ (fun h => absurd ((hc1 t).mp h) (by omega)) (fun h => absurd ((hc2 t).mp h) (by omega)) (fun h => absurd ((hc3 t).mp h) (by omega)) ((hc4 t).mpr hge) (iblk m c 0 t) (iblk m c 1 t) (iblk m c 2 t) (iblk m c 3 t) _ f6 f7 (GT m c) Set.univ _)
      isplitl [H0]; · iexact H0
      isplitl [H1]; · iexact H1
      isplitl [H2]; · iexact H2
      isplitl [H3]; · iexact H3
      isplitl [H4]; · iexact H4
      isplitl [H6]; · iexact H6
      isplitl [H7]; · iexact H7
      isplitl [H8]; · iexact H8
      iintro ⟨H0, H1, H2, H3, H4, H6, H7, H8⟩
      isplitl [H6 H7 H8 Hg]
      · isplitl [H6 H7 H8]
        · iexists _, _, _
          isplitr
          · ipureintro; exact heldD m c t.val (by omega) f6 f7 (GT m c) hH
          isplitl [H6]; · iexact H6
          isplitl [H7]; · iexact H7
          iexact H8
        iexact Hg
      isplitl [Ho]; · iexact Ho
      isplitl [H0]; · iexact H0
      isplitl [H1]; · iexact H1
      isplitl [H2]; · iexact H2
      isplitl [H3]; · iexact H3
      unfold Out; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- Before the first point nothing is known of the scratch buffers: what the launch hands the region is the invariant there. -/
theorem hin (c : Dev nD) : Pipeline.ΦA spec0 c ⊢ (dats m 0 c).Φ 0 := by
  rw [show (dats m 0 c).Φ 0 = PhiS m c 0 from rfl, PhiA_eq]
  unfold PhiS
  iintro ⟨⟨⟨%d6, H6⟩, ⟨%d7, H7⟩, ⟨%d8, H8⟩⟩, Hg⟩
  isplitl [H6 H7 H8]
  · iexists d6, d7, d8
    isplitr
    · ipureintro; exact held_zero m c d6 d7 d8
    isplitl [H6]; · iexact H6
    isplitl [H7]; · iexact H7
    iexact H8
  iexact Hg

/-- After the last point what is known of the scratch buffers is forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA_eq]
  unfold PhiS
  iintro ⟨⟨%f6, %f7, %f8, %hH, H6, H7, H8⟩, Hg⟩
  isplitl [H6 H7 H8]
  · isplitl [H6]; · iexists _; iexact H6
    isplitl [H7]; · iexists _; iexact H7
    iexists _; iexact H8
  iexact Hg

/-! ## The run and the frame -/

set_option backward.isDefEq.respectTransparency.types false in
/-- Every weakly fair execution of @main terminates, nothing faulting, with every array of the pipeline at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs to the end, faults nowhere, and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Body
end
-- ==== Proof.Spec.lean ====
/-
  The mathematics of the two-layer graph convolution, stated once, index by index, over the extended reals.

  For node features x (10000 × 128), a dense adjacency a (10000 × 10000) and weights W0 (128 × 16), W1 (16 × 16):
    feat   n c = Σ_f x(n,f) · W0(f,c)                 the first projection
    hidden r c = Σ_n a(r,n) · feat n c                the first propagation along the graph
    act    r c = max (hidden r c) 0                   the rectifier
    proj   r d = Σ_c act r c · W1(c,d)                the second projection
    logit  r d = Σ_n a(r,n) · proj n d                the second propagation
    rowMax r   = max over the 16 classes d of logit r d, starting from −∞
    expo   r d = exp (logit r d − rowMax r)
    rowSum r   = Σ_d expo r d
    out  (r,d) = expo r d / rowSum r                  the softmax over the classes
  Both programs compute exactly this nest of sums; they differ only in which factor of a product is written first,
  in how a matrix is laid out (transposed or not) and in how the rows are tiled — none of which changes a value here,
  since multiplication of extended reals commutes and each sum is over the same finite index set.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

variable (x : FVec Ideal ⟨2, ![10000, 128]⟩ .f32) (a : FVec Ideal ⟨2, ![10000, 10000]⟩ .f32)
  (W0 : FVec Ideal ⟨2, ![128, 16]⟩ .f32) (W1 : FVec Ideal ⟨2, ![16, 16]⟩ .f32)

/-- The first projection: node `n`'s features times the first weight matrix, channel `c`. -/
def feat (n : Fin 10000) (c : Fin 16) : EReal := ∑ f : Fin 128, x (ix2 n f) * W0 (ix2 f c)

/-- The first propagation: row `r` of the adjacency against the projected features. -/
def hidden (r : Fin 10000) (c : Fin 16) : EReal := ∑ n : Fin 10000, a (ix2 r n) * feat x W0 n c

/-- The rectifier, against the float zero. -/
def act (r : Fin 10000) (c : Fin 16) : EReal := max (hidden x a W0 r c) (Ideal.ofBits .f32 0x00000000#32)

/-- The second projection. -/
def proj (r : Fin 10000) (d : Fin 16) : EReal := ∑ c : Fin 16, act x a W0 r c * W1 (ix2 c d)

/-- The second propagation: the class scores of node `r`. -/
def logit (r : Fin 10000) (d : Fin 16) : EReal := ∑ n : Fin 10000, a (ix2 r n) * proj x a W0 W1 n d

/-- The largest class score of node `r`, folded from the float −∞. -/
def rowMax (r : Fin 10000) : EReal :=
  (Finset.univ : Finset (Fin 16)).fold max (Ideal.ofBits .f32 0xFF800000#32) (fun d => logit x a W0 W1 r d)

/-- The shifted exponentials. -/
def expo (r : Fin 10000) (d : Fin 16) : EReal := Ideal.exp (logit x a W0 W1 r d - rowMax x a W0 W1 r)

/-- Their sum over the classes. -/
def rowSum (r : Fin 10000) : EReal := ∑ d : Fin 16, expo x a W0 W1 r d

/-- The softmax over the classes: the result array, index by index. -/
def out : FVec Ideal ⟨2, ![10000, 16]⟩ .f32 :=
  fun j => Ideal.div (expo x a W0 W1 (j 0) (j 1)) (rowSum x a W0 W1 (j 0))

theorem out_apply (r : Fin 10000) (d : Fin 16) :
    out x a W0 W1 (ix2 r d) = Ideal.div (expo x a W0 W1 r d) (rowSum x a W0 W1 r) := rfl

end Cert.Gcn

end
-- ==== Proof.PayDot.lean ====
/-
  The kernel's three matrix products read at an index. At the ideal values a product accumulated into the zero array
  is, at an output index (i, j), the sum over the one contracted coordinate k of the left operand's element times the
  right operand's; which coordinate of each operand k sits on is what the product's dimension numbers say.
-/
import proofs.«125438_g61907658605231_cont_9to1c4b_501_23_alg».proof.Proof.Gen.KernelIdeal.Skeleton
import Idealize.ShloMosaic.PureOps.Ideal.Laws
import Idealize.ShloMosaic.Lib.ValueIdx

noncomputable section

namespace Cert.KernelIdeal.Pay

open Idealize.ShloMosaic Idealize.ShloMosaic.ValueIdx Cert.KernelIdeal Cert.KernelIdeal.Gen

/-! ## The operand indices of each product, coordinate by coordinate -/

theorem lhsN1 (i : S16x10000.Idx) (q : dot_S128x16_S10000x128_S16x10000_0_1_1_0_n_n.contr.Idx) :
    (dot_S128x16_S10000x128_S16x10000_0_1_1_0_n_n.lhsIdx i q 1).val = (i 0).val := by
  unfold DotDims.lhsIdx
  rw [dif_neg (show ¬(1 : Fin S128x16.rank) ∈ dot_S128x16_S10000x128_S16x10000_0_1_1_0_n_n.lhsBatch by decide), dif_pos (show (1 : Fin S128x16.rank) ∈ dot_S128x16_S10000x128_S16x10000_0_1_1_0_n_n.lhsNonContracting by decide)]
  rfl
theorem lhsC1 (i : S16x10000.Idx) (q : dot_S128x16_S10000x128_S16x10000_0_1_1_0_n_n.contr.Idx) :
    (dot_S128x16_S10000x128_S16x10000_0_1_1_0_n_n.lhsIdx i q 0).val = (q ⟨0, by decide⟩).val :=
  dot_S128x16_S10000x128_S16x10000_0_1_1_0_n_n.lhsIdx_val_of_single rfl i q
theorem rhsN1 (i : S16x10000.Idx) (q : dot_S128x16_S10000x128_S16x10000_0_1_1_0_n_n.contr.Idx) :
    (dot_S128x16_S10000x128_S16x10000_0_1_1_0_n_n.rhsIdx i q 0).val = (i 1).val := by
  unfold DotDims.rhsIdx
  rw [dif_neg (show ¬(0 : Fin S10000x128.rank) ∈ dot_S128x16_S10000x128_S16x10000_0_1_1_0_n_n.rhsBatch by decide), dif_pos (show (0 : Fin S10000x128.rank) ∈ dot_S128x16_S10000x128_S16x10000_0_1_1_0_n_n.rhsNonContracting by decide)]
  rfl
theorem rhsC1 (i : S16x10000.Idx) (q : dot_S128x16_S10000x128_S16x10000_0_1_1_0_n_n.contr.Idx) :
    (dot_S128x16_S10000x128_S16x10000_0_1_1_0_n_n.rhsIdx i q 1).val = (q ⟨0, by decide⟩).val :=
  dot_S128x16_S10000x128_S16x10000_0_1_1_0_n_n.rhsIdx_val_of_single rfl i q

theorem lhsN2 (i : S16x400.Idx) (q : dot_S16x10000_S400x10000_S16x400_1_1_0_0_n_n.contr.Idx) :
    (dot_S16x10000_S400x10000_S16x400_1_1_0_0_n_n.lhsIdx i q 0).val = (i 0).val := by
  unfold DotDims.lhsIdx
  rw [dif_neg (show ¬(0 : Fin S16x10000.rank) ∈ dot_S16x10000_S400x10000_S16x400_1_1_0_0_n_n.lhsBatch by decide), dif_pos (show (0 : Fin S16x10000.rank) ∈ dot_S16x10000_S400x10000_S16x400_1_1_0_0_n_n.lhsNonContracting by decide)]
  rfl
theorem lhsC2 (i : S16x400.Idx) (q : dot_S16x10000_S400x10000_S16x400_1_1_0_0_n_n.contr.Idx) :
    (dot_S16x10000_S400x10000_S16x400_1_1_0_0_n_n.lhsIdx i q 1).val = (q ⟨0, by decide⟩).val :=
  dot_S16x10000_S400x10000_S16x400_1_1_0_0_n_n.lhsIdx_val_of_single rfl i q
theorem rhsN2 (i : S16x400.Idx) (q : dot_S16x10000_S400x10000_S16x400_1_1_0_0_n_n.contr.Idx) :
    (dot_S16x10000_S400x10000_S16x400_1_1_0_0_n_n.rhsIdx i q 0).val = (i 1).val := by
  unfold DotDims.rhsIdx
  rw [dif_neg (show ¬(0 : Fin S400x10000.rank) ∈ dot_S16x10000_S400x10000_S16x400_1_1_0_0_n_n.rhsBatch by decide), dif_pos (show (0 : Fin S400x10000.rank) ∈ dot_S16x10000_S400x10000_S16x400_1_1_0_0_n_n.rhsNonContracting by decide)]
  rfl
theorem rhsC2 (i : S16x400.Idx) (q : dot_S16x10000_S400x10000_S16x400_1_1_0_0_n_n.contr.Idx) :
    (dot_S16x10000_S400x10000_S16x400_1_1_0_0_n_n.rhsIdx i q 1).val = (q ⟨0, by decide⟩).val :=
  dot_S16x10000_S400x10000_S16x400_1_1_0_0_n_n.rhsIdx_val_of_single rfl i q

theorem lhsN3 (i : S16x400.Idx) (q : dot_S16x16_S16x400_S16x400_0_0_1_1_n_n.contr.Idx) :
    (dot_S16x16_S16x400_S16x400_0_0_1_1_n_n.lhsIdx i q 1).val = (i 0).val := by
  unfold DotDims.lhsIdx
  rw [dif_neg (show ¬(1 : Fin S16x16.rank) ∈ dot_S16x16_S16x400_S16x400_0_0_1_1_n_n.lhsBatch by decide), dif_pos (show (1 : Fin S16x16.rank) ∈ dot_S16x16_S16x400_S16x400_0_0_1_1_n_n.lhsNonContracting by decide)]
  rfl
theorem lhsC3 (i : S16x400.Idx) (q : dot_S16x16_S16x400_S16x400_0_0_1_1_n_n.contr.Idx) :
    (dot_S16x16_S16x400_S16x400_0_0_1_1_n_n.lhsIdx i q 0).val = (q ⟨0, by decide⟩).val :=
  dot_S16x16_S16x400_S16x400_0_0_1_1_n_n.lhsIdx_val_of_single rfl i q
theorem rhsN3 (i : S16x400.Idx) (q : dot_S16x16_S16x400_S16x400_0_0_1_1_n_n.contr.Idx) :
    (dot_S16x16_S16x400_S16x400_0_0_1_1_n_n.rhsIdx i q 1).val = (i 1).val := by
  unfold DotDims.rhsIdx
  rw [dif_neg (show ¬(1 : Fin S16x400.rank) ∈ dot_S16x16_S16x400_S16x400_0_0_1_1_n_n.rhsBatch by decide), dif_pos (show (1 : Fin S16x400.rank) ∈ dot_S16x16_S16x400_S16x400_0_0_1_1_n_n.rhsNonContracting by decide)]
  rfl
theorem rhsC3 (i : S16x400.Idx) (q : dot_S16x16_S16x400_S16x400_0_0_1_1_n_n.contr.Idx) :
    (dot_S16x16_S16x400_S16x400_0_0_1_1_n_n.rhsIdx i q 0).val = (q ⟨0, by decide⟩).val :=
  dot_S16x16_S16x400_S16x400_0_0_1_1_n_n.rhsIdx_val_of_single rfl i q

/-! ## Each product at an index -/

/-- The left operand contracts its first axis and the right its second: out (i, j) = Σ_k l (k, i) · r (j, k). -/
theorem mm1_apply (l : FVec Ideal S128x16 .f32) (r : FVec Ideal S10000x128 .f32) (i0 : Fin 16) (i1 : Fin 10000) :
    matmul dot_S128x16_S10000x128_S16x10000_0_1_1_0_n_n none l r (constant S16x10000 .f32 0x00000000#32) (ix2 i0 i1)
      = ∑ k : Fin 128, l (ix2 k i0) * r (ix2 i1 k) := by
  show FloatOps.matmul dot_S128x16_S10000x128_S16x10000_0_1_1_0_n_n none l r (constant S16x10000 .f32 0x00000000#32) (ix2 i0 i1) = _
  rw [Ideal.matmul_constant_zero_apply, ← Equiv.sum_comp (contrEquiv1 dot_S128x16_S10000x128_S16x10000_0_1_1_0_n_n 128 rfl rfl).symm]
  refine Finset.sum_congr rfl fun k _ => ?_
  have hk := contrEquiv1_symm_val dot_S128x16_S10000x128_S16x10000_0_1_1_0_n_n 128 rfl rfl k
  have el : dot_S128x16_S10000x128_S16x10000_0_1_1_0_n_n.lhsIdx (ix2 i0 i1) ((contrEquiv1 dot_S128x16_S10000x128_S16x10000_0_1_1_0_n_n 128 rfl rfl).symm k) = ix2 k i0 := funext fun b => Fin.ext (by
    match b with
    | ⟨0, _⟩ => exact (lhsC1 _ _).trans hk
    | ⟨1, _⟩ => exact lhsN1 _ _)
  have er : dot_S128x16_S10000x128_S16x10000_0_1_1_0_n_n.rhsIdx (ix2 i0 i1) ((contrEquiv1 dot_S128x16_S10000x128_S16x10000_0_1_1_0_n_n 128 rfl rfl).symm k) = ix2 i1 k := funext fun b => Fin.ext (by
    match b with
    | ⟨0, _⟩ => exact rhsN1 _ _
    | ⟨1, _⟩ => exact (rhsC1 _ _).trans hk)
  rw [el, er]

/-- Both operands contract their second axis: out (i, j) = Σ_k l (i, k) · r (j, k). -/
theorem mm2_apply (l : FVec Ideal S16x10000 .f32) (r : FVec Ideal S400x10000 .f32) (i0 : Fin 16) (i1 : Fin 400) :
    matmul dot_S16x10000_S400x10000_S16x400_1_1_0_0_n_n none l r (constant S16x400 .f32 0x00000000#32) (ix2 i0 i1)
      = ∑ k : Fin 10000, l (ix2 i0 k) * r (ix2 i1 k) := by
  show FloatOps.matmul dot_S16x10000_S400x10000_S16x400_1_1_0_0_n_n none l r (constant S16x400 .f32 0x00000000#32) (ix2 i0 i1) = _
  rw [Ideal.matmul_constant_zero_apply, ← Equiv.sum_comp (contrEquiv1 dot_S16x10000_S400x10000_S16x400_1_1_0_0_n_n 10000 rfl rfl).symm]
  refine Finset.sum_congr rfl fun k _ => ?_
  have hk := contrEquiv1_symm_val dot_S16x10000_S400x10000_S16x400_1_1_0_0_n_n 10000 rfl rfl k
  have el : dot_S16x10000_S400x10000_S16x400_1_1_0_0_n_n.lhsIdx (ix2 i0 i1) ((contrEquiv1 dot_S16x10000_S400x10000_S16x400_1_1_0_0_n_n 10000 rfl rfl).symm k) = ix2 i0 k := funext fun b => Fin.ext (by
    match b with
    | ⟨0, _⟩ => exact lhsN2 _ _
    | ⟨1, _⟩ => exact (lhsC2 _ _).trans hk)
  have er : dot_S16x10000_S400x10000_S16x400_1_1_0_0_n_n.rhsIdx (ix2 i0 i1) ((contrEquiv1 dot_S16x10000_S400x10000_S16x400_1_1_0_0_n_n 10000 rfl rfl).symm k) = ix2 i1 k := funext fun b => Fin.ext (by
    match b with
    | ⟨0, _⟩ => exact rhsN2 _ _
    | ⟨1, _⟩ => exact (rhsC2 _ _).trans hk)
  rw [el, er]

/-- Both operands contract their first axis: out (i, j) = Σ_k l (k, i) · r (k, j). -/
theorem mm3_apply (l : FVec Ideal S16x16 .f32) (r : FVec Ideal S16x400 .f32) (i0 : Fin 16) (i1 : Fin 400) :
    matmul dot_S16x16_S16x400_S16x400_0_0_1_1_n_n none l r (constant S16x400 .f32 0x00000000#32) (ix2 i0 i1)
      = ∑ k : Fin 16, l (ix2 k i0) * r (ix2 k i1) := by
  show FloatOps.matmul dot_S16x16_S16x400_S16x400_0_0_1_1_n_n none l r (constant S16x400 .f32 0x00000000#32) (ix2 i0 i1) = _
  rw [Ideal.matmul_constant_zero_apply, ← Equiv.sum_comp (contrEquiv1 dot_S16x16_S16x400_S16x400_0_0_1_1_n_n 16 rfl rfl).symm]
  refine Finset.sum_congr rfl fun k _ => ?_
  have hk := contrEquiv1_symm_val dot_S16x16_S16x400_S16x400_0_0_1_1_n_n 16 rfl rfl k
  have el : dot_S16x16_S16x400_S16x400_0_0_1_1_n_n.lhsIdx (ix2 i0 i1) ((contrEquiv1 dot_S16x16_S16x400_S16x400_0_0_1_1_n_n 16 rfl rfl).symm k) = ix2 k i0 := funext fun b => Fin.ext (by
    match b with
    | ⟨0, _⟩ => exact (lhsC3 _ _).trans hk
    | ⟨1, _⟩ => exact lhsN3 _ _)
  have er : dot_S16x16_S16x400_S16x400_0_0_1_1_n_n.rhsIdx (ix2 i0 i1) ((contrEquiv1 dot_S16x16_S16x400_S16x400_0_0_1_1_n_n 16 rfl rfl).symm k) = ix2 k i1 := funext fun b => Fin.ext (by
    match b with
    | ⟨0, _⟩ => exact (rhsC3 _ _).trans hk
    | ⟨1, _⟩ => exact rhsN3 _ _)
  rw [el, er]

end Cert.KernelIdeal.Pay

end
-- ==== Proof.Pay.lean ====
/-
  The kernel's arithmetic read at an index. Each stored value of the kernel is a pure function of the arrays read
  before it; here each is read at an output index given by its coordinates: the first projection (a product), the
  second layer's projected activations (a product, a rectifier against the float zero, a product), the softmax of one
  block of rows (a product, the column maximum folded from the float −∞, the shifted exponentials, their column sum,
  the quotient, transposed), and the twenty-five slabs laid side by side along the node axis.
-/
import proofs.«125438_g61907658605231_cont_9to1c4b_501_23_alg».proof.Proof.PayDot
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal Cert.KernelIdeal.Gen

/-! ## The first projection -/

/-- The first projection, channel `ch` of node `n`: the sum over the input features. -/
theorem pay1_apply (w0 : Vec Ideal S128x16 .f32) (x : Vec Ideal S10000x128 .f32) (ch : Fin 16) (n : Fin 10000) :
    k0_pay1 (F := Ideal) w0 x (ix2 ch n) = ∑ f : Fin 128, x (ix2 n f) * w0 (ix2 f ch) := by
  unfold k0_pay1
  rw [shapeCast_self]
  refine (mm1_apply w0 x ch n).trans ?_
  exact Finset.sum_congr rfl fun _ _ => mul_comm _ _

/-! ## The second layer's projected activations of one block of rows -/

/-- Row `p` of the block, class `d`: the first propagation along the graph, the rectifier, the second projection. -/
theorem pay2_apply (h : Vec Ideal S16x10000 .f32) (a : Vec Ideal S400x10000 .f32) (w1 : Vec Ideal S16x16 .f32) (d : Fin 16) (p : Fin 400) :
    k0_pay2 (F := Ideal) h a w1 (ix3 (0 : Fin 1) d p)
      = ∑ c : Fin 16, max (∑ n : Fin 10000, a (ix2 p n) * h (ix2 c n)) (Ideal.ofBits .f32 0x00000000#32) * w1 (ix2 c d) := by
  unfold k0_pay2
  rw [shapeCast_ab_1ab_apply]
  refine (mm3_apply w1 _ d p).trans ?_
  refine Finset.sum_congr rfl fun c _ => ?_
  rw [maximumf_apply, broadcast_apply, mul_comm (w1 (ix2 c d))]
  refine congrArg (fun t => max t _ * w1 (ix2 c d)) ?_
  refine (mm2_apply h a c p).trans ?_
  exact Finset.sum_congr rfl fun _ _ => mul_comm _ _

/-! ## The softmax of one block of rows -/

/-- Column `p`'s index with class `d` put back on the reduced axis is (d, p). -/
theorem lift_col (h : S16x400.Reduces [0] S400) (p : Fin 400) (d : Fin (S16x400.size 0)) :
    h.lift (ix1 p) d = ix2 (⟨d.val, d.isLt⟩ : Fin 16) p := by
  funext c; apply Fin.ext
  fin_cases c <;> rfl

/-- The maximum over the classes of column `p`: the fold of `max` from the float −∞. -/
theorem colMax_apply (y : FVec Ideal S16x400 .f32) (h : S16x400.Reduces [0] S400) (hφ : FKind.Formats .f32)
    (hacc : (0xFF800000#32 : BitVec 32) = 0xFF800000#32) (p : Fin 400) :
    multiReduction .maximumf [0] S400 y 0xFF800000#32 h hφ hacc (ix1 p)
      = (Finset.univ : Finset (Fin 16)).fold max (Ideal.ofBits .f32 0xFF800000#32) (fun d => y (ix2 d p)) := by
  refine (Ideal.multiReduction_maximumf_single y 0xFF800000#32 h hφ hacc (ix1 p)).trans ?_
  have hf : (y ∘ h.lift (ix1 p)) = fun d : Fin 16 => y (ix2 d p) := funext fun d => congrArg y (lift_col h p d)
  exact congrArg (fun f => Finset.fold max (Ideal.ofBits .f32 0xFF800000#32) f (Finset.univ : Finset (Fin 16))) hf

/-- The sum over the classes of column `p`. -/
theorem colSum_apply (y : FVec Ideal S16x400 .f32) (h : S16x400.Reduces [0] S400) (hφ : FKind.Formats .f32)
    (hacc : (0x00000000#32 : BitVec 32) = 0x00000000#32) (p : Fin 400) :
    multiReduction .add [0] S400 y 0x00000000#32 h hφ hacc (ix1 p) = ∑ d : Fin 16, y (ix2 d p) := by
  refine (Ideal.multiReduction_add_single y 0x00000000#32 h hφ hacc (ix1 p)).trans ?_
  exact Finset.sum_congr rfl fun d _ => congrArg y (lift_col h p d)

/-- A value per column, given a unit row axis and broadcast over the classes, reads the column's value. -/
theorem colBack_apply (z : FVec Ideal S400 .f32) (h1 : S400.ShapeCasts S1x400) (h2 : S1x400.Broadcasts S16x400)
    (q : Fin 16) (p : Fin 400) :
    broadcastTo S16x400 (shapeCast S1x400 z h1) h2 (ix2 q p) = z (ix1 p) := by
  rw [broadcastTo_1b_ab_apply, shapeCast_a_1a_apply]

/-- Row `p` of the block, class `q`: the class scores' shifted exponential over the sum of the row's. -/
theorem pay5_apply (g : Vec Ideal S16x10000 .f32) (a : Vec Ideal S400x10000 .f32) (p : Fin 400) (q : Fin 16) :
    k0_pay5 (F := Ideal) g a (ix2 p q)
      = Ideal.div (Ideal.exp ((∑ n : Fin 10000, a (ix2 p n) * g (ix2 q n))
            - (Finset.univ : Finset (Fin 16)).fold max (Ideal.ofBits .f32 0xFF800000#32) (fun d => ∑ n : Fin 10000, a (ix2 p n) * g (ix2 d n))))
          (∑ e : Fin 16, Ideal.exp ((∑ n : Fin 10000, a (ix2 p n) * g (ix2 e n))
            - (Finset.univ : Finset (Fin 16)).fold max (Ideal.ofBits .f32 0xFF800000#32) (fun d => ∑ n : Fin 10000, a (ix2 p n) * g (ix2 d n)))) := by
  have hs : ∀ c : Fin 16, matmul (F := Ideal) (φ₁ := .f32) (φ₂ := .f32) dot_S16x10000_S400x10000_S16x400_1_1_0_0_n_n none g a (constant S16x400 .f32 0x00000000#32) (ix2 c p)
      = ∑ n : Fin 10000, a (ix2 p n) * g (ix2 c n) := fun c =>
    (mm2_apply g a c p).trans (Finset.sum_congr rfl fun _ _ => mul_comm _ _)
  unfold k0_pay5
  generalize matmul (F := Ideal) (φ₁ := .f32) (φ₂ := .f32) dot_S16x10000_S400x10000_S16x400_1_1_0_0_n_n none g a (constant S16x400 .f32 0x00000000#32) = y at hs
  rw [transpose_ix2_apply, divf_apply, colBack_apply, colSum_apply]
  have he : ∀ c : Fin 16, exp (subf y (broadcastTo S16x400 (shapeCast S1x400
        (multiReduction .maximumf [0] S400 y 0xFF800000#32 reduces_S16x400_S400 (.inl rfl) rfl) shapeCasts_S400_S1x400)
        broadcasts_S1x400_S16x400)) (ix2 c p)
      = Ideal.exp ((∑ n : Fin 10000, a (ix2 p n) * g (ix2 c n))
          - (Finset.univ : Finset (Fin 16)).fold max (Ideal.ofBits .f32 0xFF800000#32) (fun d => ∑ n : Fin 10000, a (ix2 p n) * g (ix2 d n))) := fun c => by
    show Ideal.exp (subf y _ (ix2 c p)) = _
    rw [subf_apply, colBack_apply, colMax_apply, hs c]
    exact congrArg (fun f => Ideal.exp (_ - Finset.fold max (Ideal.ofBits .f32 0xFF800000#32) f (Finset.univ : Finset (Fin 16)))) (funext hs)
  rw [he q]
  exact congrArg (Ideal.div _) (Finset.sum_congr rfl fun e _ => he e)

/-! ## The twenty-five slabs side by side -/

/-- The slabs, each with its leading unit axis dropped, concatenated along the node axis: node `n` lies in slab
    `n / 400` at position `n % 400`. -/
theorem sbs_apply (v : Fin 25 → Vec Ideal S1x16x400 .f32) (d : Fin 16) (n : Fin 10000) :
    k0_pay4 (F := Ideal) (k0_pay3 (k0_pay6 (v 0)) (k0_pay7 (v 1)) (k0_pay8 (v 2)) (k0_pay9 (v 3)) (k0_pay10 (v 4)) (k0_pay11 (v 5)) (k0_pay12 (v 6)) (k0_pay13 (v 7)) (k0_pay14 (v 8)) (k0_pay15 (v 9)) (k0_pay16 (v 10)) (k0_pay17 (v 11)) (k0_pay18 (v 12)) (k0_pay19 (v 13)) (k0_pay20 (v 14)) (k0_pay21 (v 15)) (k0_pay22 (v 16)) (k0_pay23 (v 17)) (k0_pay24 (v 18)) (k0_pay25 (v 19)) (k0_pay26 (v 20)) (k0_pay27 (v 21)) (k0_pay28 (v 22)) (k0_pay29 (v 23)) (v 24)) (ix2 d n)
      = v ⟨n.val / 400, by have := n.isLt; omega⟩ (ix3 (0 : Fin 1) d ⟨n.val % 400, Nat.mod_lt _ (by omega)⟩) := by
  unfold k0_pay4 k0_pay3 k0_pay6 k0_pay7 k0_pay8 k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29
  rw [shapeCast_self]
  refine (concatenate_ofFn_apply (t := S16x10000) (s₁ := S16x400) 1
    (fun b : Fin 25 => shapeCast S16x400 (v b) shapeCasts_S1x16x400_S16x400) _ rfl 400 rfl (ix2 d n)
    ⟨n.val / 400, by have := n.isLt; omega⟩ rfl (ix2 d ⟨n.val % 400, Nat.mod_lt _ (by omega)⟩) rfl ?_).trans ?_
  · intro b hb
    match b with
    | ⟨0, _⟩ => rfl
    | ⟨1, _⟩ => exact absurd rfl hb
  · exact shapeCast_1ab_ab_apply _ _ d _

end Cert.KernelIdeal.Pay

end
-- ==== Proof.KernelValue.lean ====
/-
  The kernel's result array, read: each staged block is rows of an argument array; what the scratch buffers hold after each
  phase is, index by index, a stage of the specification (the first projection, the second projection band by band, then for
  every row); the block a point of the second sweep writes back is its 400 rows of the specification's softmax; the 25 blocks
  written back tile the result array. The only algebra used is that a product of two extended reals does not depend on the
  order of its factors.
-/
import proofs.«125438_g61907658605231_cont_9to1c4b_501_23_alg».proof.Defs
import proofs.«125438_g61907658605231_cont_9to1c4b_501_23_alg».proof.Proof.Body
import proofs.«125438_g61907658605231_cont_9to1c4b_501_23_alg».proof.Proof.Spec
import proofs.«125438_g61907658605231_cont_9to1c4b_501_23_alg».proof.Proof.Pay
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen Cert.KernelIdeal.Body Cert.KernelIdeal.Pay

variable (m : (ℓ : Loc nD τ sig) → Buf (Elt Ideal) ℓ) (ρ : Dev nD → PrngReg)

/-! ## The argument arrays, and the blocks the pipeline stages, read at an index -/

/-- The four argument arrays of core `c`, as launched. -/
abbrev aX (c : Dev nD) : FVec Ideal S10000x128 .f32 := m ((c : Thread nD τ).loc main_arg0)
abbrev aA (c : Dev nD) : FVec Ideal S10000x10000 .f32 := m ((c : Thread nD τ).loc main_arg1)
abbrev aW0 (c : Dev nD) : FVec Ideal S128x16 .f32 := m ((c : Thread nD τ).loc main_arg2)
abbrev aW1 (c : Dev nD) : FVec Ideal S16x16 .f32 := m ((c : Thread nD τ).loc main_arg3)

/-- The features, the two weight matrices: one block, the whole array, at every point. The adjacency: row band
    `t mod 25`, all columns. The result: row band `t − 25` once the second sweep has begun. -/
theorem idx0 : ∀ t : Fin cfg0.N, win0_0.index t 0 = 0 ∧ win0_0.index t 1 = 0 :=
  (by decide +kernel : ∀ t : Fin grid0.N, win0_0.index t 0 = 0 ∧ win0_0.index t 1 = 0)
theorem idx1 : ∀ t : Fin cfg0.N, win0_1.index t 0 = t.val % 25 ∧ win0_1.index t 1 = 0 :=
  (by decide +kernel : ∀ t : Fin grid0.N, win0_1.index t 0 = t.val % 25 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = t.val - 25 ∧ win0_4.index t 1 = 0 :=
  (by decide +kernel : ∀ t : Fin grid0.N, win0_4.index t 0 = t.val - 25 ∧ win0_4.index t 1 = 0)
theorem flush4 : ∀ t : Fin cfg0.N, (cfg0.win 4).flush t = true ↔ 25 ≤ t.val :=
  (by decide +kernel : ∀ t : Fin grid0.N, win0_4.flush t = true ↔ 25 ≤ t.val)

theorem iblk0_apply (c : Dev nD) (t : Fin cfg0.N) (n : Fin 10000) (f : Fin 128) :
    (iblk m c 0 t : Vec Ideal S10000x128 .f32) (ix2 n f) = aX m c (ix2 n f) := by
  have hi := idx0 t
  unfold iblk
  rw [View.read_apply]
  show V m c main_arg0 _ = m (c.tc.loc main_arg0) _
  unfold V
  congr 1
  funext a
  apply Fin.ext
  match a with
  | ⟨0, _⟩ => show win0_0.index t 0 * 10000 + 1 * n.val = n.val; rw [hi.1]; omega
  | ⟨1, _⟩ => show win0_0.index t 1 * 128 + 1 * f.val = f.val; rw [hi.2]; omega

theorem iblk2_apply (c : Dev nD) (t : Fin cfg0.N) (f : Fin 128) (ch : Fin 16) :
    (iblk m c 2 t : Vec Ideal S128x16 .f32) (ix2 f ch) = aW0 m c (ix2 f ch) := by
  have hi := idx2 t
  unfold iblk
  rw [View.read_apply]
  show V m c main_arg2 _ = m (c.tc.loc main_arg2) _
  unfold V
  congr 1
  funext a
  apply Fin.ext
  match a with
  | ⟨0, _⟩ => show win0_2.index t 0 * 128 + 1 * f.val = f.val; rw [hi.1]; omega
  | ⟨1, _⟩ => show win0_2.index t 1 * 16 + 1 * ch.val = ch.val; rw [hi.2]; omega

theorem iblk3_apply (c : Dev nD) (t : Fin cfg0.N) (ch : Fin 16) (d : Fin 16) :
    (iblk m c 3 t : Vec Ideal S16x16 .f32) (ix2 ch d) = aW1 m c (ix2 ch d) := by
  have hi := idx3 t
  unfold iblk
  rw [View.read_apply]
  show V m c main_arg3 _ = m (c.tc.loc main_arg3) _
  unfold V
  congr 1
  funext a
  apply Fin.ext
  match a with
  | ⟨0, _⟩ => show win0_3.index t 0 * 16 + 1 * ch.val = ch.val; rw [hi.1]; omega
  | ⟨1, _⟩ => show win0_3.index t 1 * 16 + 1 * d.val = d.val; rw [hi.2]; omega

/-- The adjacency's row band staged at point `t` (400 rows, all columns). -/
abbrev band (c : Dev nD) (t : Fin cfg0.N) : Vec Ideal S400x10000 .f32 := iblk m c 1 t

/-- Row `p` of the band staged at point `t` is row `(t mod 25)·400 + p` of the adjacency. -/
theorem iblk1_apply (c : Dev nD) (t : Fin cfg0.N) (p : Fin 400) (n : Fin 10000) (r : Fin 10000)
    (hr : r.val = (t.val % 25) * 400 + p.val) :
    (iblk m c 1 t : Vec Ideal S400x10000 .f32) (ix2 p n) = aA m c (ix2 r n) := by
  have hi := idx1 t
  unfold iblk
  rw [View.read_apply]
  show V m c main_arg1 _ = m (c.tc.loc main_arg1) _
  unfold V
  congr 1
  funext a
  apply Fin.ext
  match a with
  | ⟨0, _⟩ => show win0_1.index t 0 * 400 + 1 * p.val = r.val; rw [hi.1, hr]; omega
  | ⟨1, _⟩ => show win0_1.index t 1 * 10000 + 1 * n.val = n.val; rw [hi.2]; omega

/-! ## What the scratch buffers and the result block hold, in the specification's terms -/

/-- The first scratch is the first projection, transposed. -/
theorem H0_apply (c : Dev nD) (ch : Fin 16) (n : Fin 10000) :
    H0 m c (ix2 ch n) = Cert.Gcn.feat (aX m c) (aW0 m c) n ch := by
  unfold H0
  rw [pay1_apply]
  unfold Cert.Gcn.feat
  exact Finset.sum_congr rfl fun f _ => by rw [iblk0_apply, iblk2_apply]

/-- Slab `b` of the second scratch is the second projection of band `b`'s rows, transposed. -/
theorem G3_apply (c : Dev nD) (b : Nat) (hb : b < 25) (d : Fin 16) (p : Fin 400) (r : Fin 10000) (hr : r.val = b * 400 + p.val) :
    G3 m c b hb (ix3 (0 : Fin 1) d p) = Cert.Gcn.proj (aX m c) (aA m c) (aW0 m c) (aW1 m c) r d := by
  unfold G3
  rw [pay2_apply]
  unfold Cert.Gcn.proj Cert.Gcn.act Cert.Gcn.hidden
  refine Finset.sum_congr rfl fun ch _ => ?_
  rw [iblk3_apply]
  congr 2
  refine Finset.sum_congr rfl fun n _ => ?_
  rw [iblk1_apply m c _ p n r (by show r.val = (b % 25) * 400 + p.val; rw [Nat.mod_eq_of_lt hb]; exact hr), H0_apply]

/-- The third scratch is the second projection of every row, transposed. -/
theorem GT_apply (c : Dev nD) (d : Fin 16) (n : Fin 10000) :
    GT m c (ix2 d n) = Cert.Gcn.proj (aX m c) (aA m c) (aW0 m c) (aW1 m c) n d := by
  unfold GT
  refine (sbs_apply (fun b : Fin 25 => G3 m c b.val b.isLt) d n).trans ?_
  exact G3_apply m c _ _ d _ n (by show n.val = n.val / 400 * 400 + n.val % 400; omega)

/-- The class scores of a row of the band staged at a point of the second sweep. -/
theorem logit_eq (c : Dev nD) (t : Fin cfg0.N) (ht : 25 ≤ t.val) (p : Fin 400) (d : Fin 16) (r : Fin 10000)
    (hr : r.val = (t.val - 25) * 400 + p.val) :
    (∑ n : Fin 10000, band m c t (ix2 p n) * GT m c (ix2 d n))
      = Cert.Gcn.logit (aX m c) (aA m c) (aW0 m c) (aW1 m c) r d := by
  unfold Cert.Gcn.logit
  have hN : t.val < 50 := lt_of_lt_of_eq t.isLt (show cfg0.N = 50 from N_0)
  refine Finset.sum_congr rfl fun n _ => ?_
  unfold band
  rw [iblk1_apply m c t p n r (by rw [hr]; omega), GT_apply]

/-- The block a point of the second sweep stores is its row band of the softmax. -/
theorem Out_apply (c : Dev nD) (t : Fin cfg0.N) (ht : 25 ≤ t.val) (p : Fin 400) (q : Fin 16) (r : Fin 10000)
    (hr : r.val = (t.val - 25) * 400 + p.val) :
    Out m c t (ix2 p q) = Cert.Gcn.out (aX m c) (aA m c) (aW0 m c) (aW1 m c) (ix2 r q) := by
  unfold Out
  rw [show k0_pay5 (GT m c) (iblk m c 1 t) = k0_pay5 (GT m c) (band m c t) from rfl, pay5_apply, Cert.Gcn.out_apply]
  unfold Cert.Gcn.rowSum Cert.Gcn.expo Cert.Gcn.rowMax
  simp only [logit_eq m c t ht p _ r hr]

/-! ## From the blocks written back to the result array -/

/-- The result array the run ends with: the specification's softmax of the argument arrays. -/
abbrev result (c : Dev nD) : Buf (Elt Ideal) ((c : Thread nD τ).loc main_v0) :=
  Cert.Gcn.out (aX m c) (aA m c) (aW0 m c) (aW1 m c)

theorem flushed_eq (c : Dev nD) (t : Fin cfg0.N) (hf : (cfg0.win 4).flush t = true) :
    (dats m 0 c).flushed 4 t = ((cfg0.win 4).blk t).view.read (Elt Ideal) (result m c) := by
  have ht : 25 ≤ t.val := (flush4 t).mp hf
  have hN : t.val < 50 := lt_of_lt_of_eq t.isLt (show cfg0.N = 50 from N_0)
  have hi := idx4 t
  show (cfg0.win 4).cut (grid0.coords t) ((dats m 0 c).after 4 t) = _
  rw [after4]
  funext y
  show Out m c t y = result m c (((cfg0.win 4).blk t).view.emb y)
  have hy0 : (y 0).val < 400 := (y 0).isLt
  have hy1 : (y 1).val < 16 := (y 1).isLt
  have e := Out_apply m c t ht ⟨(y 0).val, hy0⟩ ⟨(y 1).val, hy1⟩ ⟨(t.val - 25) * 400 + (y 0).val, by omega⟩ rfl
  have hemb : ((cfg0.win 4).blk t).view.emb y
      = (ix2 (⟨(t.val - 25) * 400 + (y 0).val, by omega⟩ : Fin 10000) (⟨(y 1).val, hy1⟩ : Fin 16) : S10000x16.Idx) := by
    funext a; apply Fin.ext
    match a with
    | ⟨0, _⟩ => show win0_4.index t 0 * 400 + 1 * (y 0).val = (t.val - 25) * 400 + (y 0).val; rw [hi.1]; omega
    | ⟨1, _⟩ => show win0_4.index t 1 * 16 + 1 * (y 1).val = (y 1).val; rw [hi.2]; omega
  rw [hemb]
  have ey : (y : S400x16.Idx) = ix2 (⟨(y 0).val, hy0⟩ : Fin 400) (⟨(y 1).val, hy1⟩ : Fin 16) := by
    funext a
    match a with
    | ⟨0, _⟩ => rfl
    | ⟨1, _⟩ => rfl
  exact (congrArg (Out m c t) ey).trans e

/-- An index of the result array lies in the block of point `25 + (its row)/400`. -/
theorem cover (i : S10000x16.Idx) :
    ∃ t : Fin cfg0.N, (cfg0.win 4).flush t = true ∧ i ∈ ((cfg0.win 4).blk t).view.set := by
  have h0 : (i 0).val < 10000 := (i 0).isLt
  have h1 : (i 1).val < 16 := (i 1).isLt
  obtain ⟨t, htv⟩ : ∃ t : Fin cfg0.N, t.val = 25 + (i 0).val / 400 := ⟨pt (25 + (i 0).val / 400) (by omega), rfl⟩
  have hi := idx4 t
  refine ⟨t, (flush4 t).mpr (by omega), ?_⟩
  show i ∈ ((View.whole main_v0).slice (win0_4.rect t)).set
  rw [View.set_slice_whole, Rect.mem_set_unit]
  intro a
  match a with
  | ⟨0, _⟩ =>
    show win0_4.index t 0 * 400 ≤ (i 0).val ∧ (i 0).val < win0_4.index t 0 * 400 + 400
    rw [hi.1, htv]; omega
  | ⟨1, _⟩ =>
    show win0_4.index t 1 * 16 ≤ (i 1).val ∧ (i 1).val < win0_4.index t 1 * 16 + 16
    rw [hi.2]; omega

/-- So the result array ends holding the specification's softmax. -/
theorem final (c : Dev nD) : (dats m 0 c).arrAt 4 cfg0.N = result m c :=
  (dats m 0 c).arrAt_eq_of_cover 4 (result m c) (flushed_eq m c) cover

/-- The run, read: the result array at the specification's function of the argument arrays, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main (F := Ideal) m ρ)

end Cert.KernelIdeal.KValue

end
-- ==== Proof.RefValue.lean ====
/-
  The reference program read index by index: each stage of its straight-line computation, at an index split into its
  coordinates, is the matching quantity of the specification (Spec.lean) — the four matrix products as sums over the
  contracted coordinate, the rectifier as a maximum against the float zero, the row maximum as a fold of `max` over the
  sixteen classes started at the float −∞, the shifted exponentials, their row sum, and the quotient. No hypothesis on
  the arrays is needed: the specification writes each product's factors in the reference's own order.
-/
import proofs.«125438_g61907658605231_cont_9to1c4b_501_23_alg».proof.Proof.Gen.ReferenceIdeal.Read
import proofs.«125438_g61907658605231_cont_9to1c4b_501_23_alg».proof.Proof.Spec
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
  Idealize.ShloMosaic.StableHlo Cert.Gcn

variable (x : FVec Ideal S10000x128 .f32) (a : FVec Ideal S10000x10000 .f32)
  (W0 : FVec Ideal S128x16 .f32) (W1 : FVec Ideal S16x16 .f32)

/-! ## The index functions of the read-at-an-index lemmas, at an index given by its coordinates -/

theorem lidx0 (n : Fin 10000) (c : Fin 16) (k : Fin 128) : lidx_main_v0 (ix2 n c) k = ix2 n k :=
  funext fun b => by match b with | ⟨0, _⟩ => rfl | ⟨1, _⟩ => rfl
theorem ridx0 (n : Fin 10000) (c : Fin 16) (k : Fin 128) : ridx_main_v0 (ix2 n c) k = ix2 k c :=
  funext fun b => by match b with | ⟨0, _⟩ => rfl | ⟨1, _⟩ => rfl
theorem lidx1 (r : Fin 10000) (c : Fin 16) (k : Fin 10000) : lidx_main_v1 (ix2 r c) k = ix2 r k :=
  funext fun b => by match b with | ⟨0, _⟩ => rfl | ⟨1, _⟩ => rfl
theorem ridx1 (r : Fin 10000) (c : Fin 16) (k : Fin 10000) : ridx_main_v1 (ix2 r c) k = ix2 k c :=
  funext fun b => by match b with | ⟨0, _⟩ => rfl | ⟨1, _⟩ => rfl
theorem lidx3 (r : Fin 10000) (d : Fin 16) (k : Fin 16) : lidx_main_v3 (ix2 r d) k = ix2 r k :=
  funext fun b => by match b with | ⟨0, _⟩ => rfl | ⟨1, _⟩ => rfl
theorem ridx3 (r : Fin 10000) (d : Fin 16) (k : Fin 16) : ridx_main_v3 (ix2 r d) k = ix2 k d :=
  funext fun b => by match b with | ⟨0, _⟩ => rfl | ⟨1, _⟩ => rfl
theorem lidx4 (r : Fin 10000) (d : Fin 16) (k : Fin 10000) : lidx_main_v4 (ix2 r d) k = ix2 r k :=
  funext fun b => by match b with | ⟨0, _⟩ => rfl | ⟨1, _⟩ => rfl
theorem ridx4 (r : Fin 10000) (d : Fin 16) (k : Fin 10000) : ridx_main_v4 (ix2 r d) k = ix2 k d :=
  funext fun b => by match b with | ⟨0, _⟩ => rfl | ⟨1, _⟩ => rfl
theorem idx12 (r : Fin 10000) (k : Fin 16) : idx_main_v12 (ix1 r) k = ix2 r k :=
  funext fun b => by match b with | ⟨0, _⟩ => rfl | ⟨1, _⟩ => rfl
/-- A row's value broadcast along the classes: the two broadcasts composed read the column at the row. -/
theorem idx98 (r : Fin 10000) (d : Fin 16) : idx_main_v8 (idx_main_v9 (ix2 r d)) = ix1 r :=
  funext fun b => by match b with | ⟨0, _⟩ => rfl
theorem idx1413 (r : Fin 10000) (d : Fin 16) : idx_main_v13 (idx_main_v14 (ix2 r d)) = ix1 r :=
  funext fun b => by match b with | ⟨0, _⟩ => rfl

/-! ## The two graph-convolution layers -/

/-- The first projection. -/
theorem v0_eq (n : Fin 10000) (c : Fin 16) : val_main_v0 (F := Ideal) x W0 (ix2 n c) = feat x W0 n c := by
  rw [val_main_v0_apply]
  unfold feat
  refine Finset.sum_congr rfl fun k _ => ?_
  rw [lidx0, ridx0]

/-- The first propagation. -/
theorem v1_eq (r : Fin 10000) (c : Fin 16) : val_main_v1 (F := Ideal) x a W0 (ix2 r c) = Gcn.hidden x a W0 r c := by
  rw [val_main_v1_apply]
  unfold Gcn.hidden
  refine Finset.sum_congr rfl fun k _ => ?_
  rw [lidx1, ridx1, v0_eq]

/-- The rectifier: the maximum against the broadcast float zero. -/
theorem v2_eq (r : Fin 10000) (c : Fin 16) : val_main_v2 (F := Ideal) x a W0 (ix2 r c) = act x a W0 r c := by
  rw [val_main_v2_apply, val_main_call0_v0_apply, val_main_call0_cst_apply, v1_eq]
  rfl

/-- The second projection. -/
theorem v3_eq (r : Fin 10000) (d : Fin 16) : val_main_v3 (F := Ideal) x a W0 W1 (ix2 r d) = proj x a W0 W1 r d := by
  rw [val_main_v3_apply]
  unfold proj
  refine Finset.sum_congr rfl fun k _ => ?_
  rw [lidx3, ridx3, v2_eq]

/-- The second propagation: the class scores. -/
theorem v4_eq (r : Fin 10000) (d : Fin 16) : val_main_v4 (F := Ideal) x a W0 W1 (ix2 r d) = logit x a W0 W1 r d := by
  rw [val_main_v4_apply]
  unfold logit
  refine Finset.sum_congr rfl fun k _ => ?_
  rw [lidx4, ridx4, v3_eq]

/-! ## The softmax over the classes -/

/-- Row `r`'s index with class `d` put back on the reduced axis is (r, d). -/
theorem lift_row (h : S10000x16.Reduces [1] S10000) (r : Fin 10000) (d : Fin (S10000x16.size 1)) :
    h.lift (ix1 r) d = ix2 r (⟨d.val, d.isLt⟩ : Fin 16) := by
  funext c; apply Fin.ext
  fin_cases c <;> rfl

/-- The row maximum: the reduce with a maximum body over the class axis is the fold of `max` over the sixteen classes,
    started at the initial value's one element, the float −∞. -/
theorem v5_eq (r : Fin 10000) : val_main_v5 (F := Ideal) x a W0 W1 (ix1 r) = rowMax x a W0 W1 r := by
  have h : S10000x16.Reduces [1] S10000 := by decide
  unfold val_main_v5
  rw [Host.reduce_eq_fold_single FloatOps.maximumf _ _ reducesTo_S10000x16_S10000_d1 h h_S_]
  have hf : (val_main_v4 (F := Ideal) x a W0 W1 ∘ h.lift (ix1 r)) = fun d : Fin 16 => logit x a W0 W1 r d :=
    funext fun d => by
      show val_main_v4 (F := Ideal) x a W0 W1 (h.lift (ix1 r) d) = _
      rw [lift_row, v4_eq]
      rfl
  unfold rowMax
  exact congrArg (fun f => Finset.fold max (Ideal.ofBits .f32 0xFF800000#32) f (Finset.univ : Finset (Fin 16))) hf

/-- The extra maximum against the broadcast −∞ changes nothing: a fold of `max` is at least its starting value. -/
theorem v7_eq (r : Fin 10000) : val_main_v7 (F := Ideal) x a W0 W1 (ix1 r) = rowMax x a W0 W1 r := by
  rw [val_main_v7_apply, val_main_v6_apply, val_main_cst_0_apply, v5_eq]
  show max (Ideal.ofBits .f32 0xFF800000#32) (rowMax x a W0 W1 r) = rowMax x a W0 W1 r
  exact max_eq_right ((Finset.le_fold_max _).2 (Or.inl le_rfl))

/-- The row maximum broadcast back along the classes. -/
theorem v9_eq (r : Fin 10000) (d : Fin 16) : val_main_v9 (F := Ideal) x a W0 W1 (ix2 r d) = rowMax x a W0 W1 r := by
  rw [val_main_v9_apply, val_main_v8_apply, idx98, v7_eq]

/-- The shifted exponentials. -/
theorem v11_eq (r : Fin 10000) (d : Fin 16) : val_main_v11 (F := Ideal) x a W0 W1 (ix2 r d) = expo x a W0 W1 r d := by
  rw [val_main_v11_apply, val_main_v10_apply, v4_eq, v9_eq]
  rfl

/-- Their row sum: the reduce with an add body starts at the float zero, the extended real `0`. -/
theorem v12_eq (r : Fin 10000) : val_main_v12 (F := Ideal) x a W0 W1 (ix1 r) = rowSum x a W0 W1 r := by
  rw [val_main_v12_apply, val_main_cst_1_apply]
  show Ideal.ofBits .f32 0x00000000#32 + _ = _
  rw [Ideal.ofBits_zero_f32, zero_add]
  unfold rowSum
  refine Finset.sum_congr rfl fun k _ => ?_
  rw [idx12, v11_eq]

/-- The row sum broadcast back along the classes. -/
theorem v14_eq (r : Fin 10000) (d : Fin 16) : val_main_v14 (F := Ideal) x a W0 W1 (ix2 r d) = rowSum x a W0 W1 r := by
  rw [val_main_v14_apply, val_main_v13_apply, idx1413, v12_eq]

/-- The last stage is the specification's result array. -/
theorem ref_eq : val_main_v15 (F := Ideal) x a W0 W1 = out x a W0 W1 := by
  funext j
  obtain ⟨r, d, rfl⟩ : ∃ (r : Fin 10000) (d : Fin 16), j = ix2 r d := ⟨j 0, j 1, eq_ix2 j⟩
  rw [val_main_v15_apply, v11_eq, v14_eq, out_apply]
  rfl

end Cert.ReferenceIdeal.RefValue

end
-- ==== Proof.RefRun.lean ====
/-
  The reference's run with its result named: every weakly fair execution of the reference terminates with its result
  array equal, index by index, to the specification's softmax of the two-layer graph convolution of the argument
  arrays, and with the four argument arrays unchanged; dropping the result gives the reference's frame claim.
-/
import proofs.«125438_g61907658605231_cont_9to1c4b_501_23_alg».proof.Defs
import proofs.«125438_g61907658605231_cont_9to1c4b_501_23_alg».proof.Proof.Gen.ReferenceIdeal
import proofs.«125438_g61907658605231_cont_9to1c4b_501_23_alg».proof.Proof.Gen.Pre_finite_inputs
import proofs.«125438_g61907658605231_cont_9to1c4b_501_23_alg».proof.Proof.Gen.ReferenceIdeal.Run
import proofs.«125438_g61907658605231_cont_9to1c4b_501_23_alg».proof.Proof.RefValue

noncomputable section

open Idealize.ShloMosaic Idealize.ShloMosaic.TcCoe Idealize.SL.Sem

namespace Cert.ReferenceIdeal.RefValue

open Cert.ReferenceIdeal Cert.ReferenceIdeal.Gen

/-- The reference's run: on every device the result array ends at the specification's result of the argument arrays as
    the run found them, and the argument arrays end unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
          = Cert.Gcn.out (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((Read.val_main_v15_eq _ _ _ _).trans (ref_eq _ _ _ _)), (h c).2⟩)
    (Cert.ReferenceIdeal.Value.run (F := Ideal) m ρ)

end Cert.ReferenceIdeal.RefValue

namespace Cert.Proof.RefClaims

/-- The reference's frame claim: the same run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefClaims

end
-- ==== Proof.Claims.lean ====
/-
  The five claims.

  The two kernels' frames are the tracked run of the pipeline (the same proof read at the word-level values and at the
  extended reals); the reference's frame is its run with the result dropped; nothing was rewritten between the kernel and
  its idealization, so there is nothing to preserve; and at the extended reals the kernel's result array and the
  reference's are both the specification's softmax of the two-layer graph convolution of the argument arrays.
-/
import proofs.«125438_g61907658605231_cont_9to1c4b_501_23_alg».proof.Defs
import proofs.«125438_g61907658605231_cont_9to1c4b_501_23_alg».proof.Proof.Gen.Kernel
import proofs.«125438_g61907658605231_cont_9to1c4b_501_23_alg».proof.Proof.Gen.KernelIdeal
import proofs.«125438_g61907658605231_cont_9to1c4b_501_23_alg».proof.Proof.Gen.ReferenceIdeal
import proofs.«125438_g61907658605231_cont_9to1c4b_501_23_alg».proof.Proof.Gen.Pre_finite_inputs
import proofs.«125438_g61907658605231_cont_9to1c4b_501_23_alg».proof.Proof.KBody
import proofs.«125438_g61907658605231_cont_9to1c4b_501_23_alg».proof.Proof.Body
import proofs.«125438_g61907658605231_cont_9to1c4b_501_23_alg».proof.Proof.KernelValue
import proofs.«125438_g61907658605231_cont_9to1c4b_501_23_alg».proof.Proof.RefRun

noncomputable section

open Idealize.ShloMosaic Idealize.ShloMosaic.TcCoe Idealize.SL.Sem

namespace Cert.Proof.GcnClaims

theorem frame_p : Cert.frame_Kernel := fun m ρ _ => Cert.Kernel.Body.frame (F := Bits) m ρ

theorem frame_pi : Cert.frame_KernelIdeal := fun m ρ _ => Cert.KernelIdeal.Body.frame (F := Ideal) m ρ

theorem preserves : Cert.preserves_Kernel_KernelIdeal := trivial

/-- From memories agreeing on the four argument arrays both programs end with the specification's result of those arrays. -/
theorem algebraic : Cert.algebraic_KernelIdeal_ReferenceIdeal := by
  intro m g m' g' _ hagree
  refine ⟨fun c => Cert.Gcn.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.KValue.run m g, ?_⟩
  refine (θ_run Cert.ReferenceIdeal.defs _ _).mono (fun _ h c => ⟨(h c).1.trans ?_, (h c).2⟩)
    (Cert.ReferenceIdeal.RefValue.ref_run m' g')
  rw [(hagree c).1, (hagree c).2.1, (hagree c).2.2.1, (hagree c).2.2.2]

end Cert.Proof.GcnClaims

end
-- ==== Proof.lean ====
/-
  The certificate of a two-layer graph convolution kernel against its plain reference:
  softmax over the classes of A · (relu (A · (X · W0)) · W1), for 10000 nodes, 128 features, 16 channels and 16 classes.

  The kernel is ONE pipelined call over 50 grid points. Point 0 projects the features once (X · W0, kept transposed in a
  scratch buffer). Points 0 … 24 sweep the adjacency's 25 row bands of 400 rows: each band is multiplied with the projected
  features, rectified, projected by W1, and the band's 16 × 400 result is kept in its own slab of a second scratch buffer.
  Point 25 lays the 25 slabs side by side into a third scratch buffer. Points 25 … 49 sweep the row bands again: each band is
  multiplied with that buffer, the softmax over the 16 classes is taken per row, and the band's 400 × 16 block of the result
  is written back. The proof follows that structure: Proof/BodyBase.lean decides over the grid which of the four guarded
  parts run at a point; Proof/RunA … RunD.lean run the body in each of the four cases; Proof/Body.lean carries, from point to
  point, what is known of the three scratch buffers, and concludes the frame; Proof/Pay*.lean read the body's arithmetic at
  an index; Proof/KernelValue.lean reads the staged blocks as rows of the argument arrays and the written-back blocks as the
  result array; Proof/RefValue.lean and RefRun.lean read the reference; Proof/Spec.lean is the common statement, and
  Proof/Claims.lean assembles the five claims. The K-prefixed modules are the same frame proof for the kernel as printed
  (before idealization), whose program is a separate text.
-/
import proofs.«125438_g61907658605231_cont_9to1c4b_501_23_alg».proof.Defs
import proofs.«125438_g61907658605231_cont_9to1c4b_501_23_alg».proof.Proof.Gen.Kernel
import proofs.«125438_g61907658605231_cont_9to1c4b_501_23_alg».proof.Proof.Gen.KernelIdeal
import proofs.«125438_g61907658605231_cont_9to1c4b_501_23_alg».proof.Proof.Gen.ReferenceIdeal
import proofs.«125438_g61907658605231_cont_9to1c4b_501_23_alg».proof.Proof.Gen.Pre_finite_inputs
import proofs.«125438_g61907658605231_cont_9to1c4b_501_23_alg».proof.Proof.Claims
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    GcnClaims.frame_p, GcnClaims.frame_pi, RefClaims.frame_ri, GcnClaims.preserves, GcnClaims.algebraic⟩

end Cert.Proof

end
